-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 9
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S400x128, .f32⟩
  | .local _ .vmem, ⟨8, _⟩ => ⟨S400x128, .f32⟩
  | .local _ .vmem, ⟨9, _⟩ => ⟨S10000x128, .bf16⟩
  | .local _ .vmem, ⟨10, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c25_i32 : BitVec 32 := 25#32
  let v5 : BitVec 1 := Scalar.cmpi .slt arg0 c25_i32
  let v6 : BitVec 32 := Scalar.extui v5
  let c0_i32_2 : BitVec 32 := 0#32
  let v7 : BitVec 1 := Scalar.cmpi .ne v6 c0_i32_2
  v7

def k0_off1 (i : grid0.Coords) : Fin 2 → Nat :=
  let arg0 : BitVec 32 := BitVec.ofNat 32 (i 0).val
  let c400_i32 : BitVec 32 := 400#32
  let v24 : BitVec 32 := Scalar.muli arg0 c400_i32
  let v25 : Index := Scalar.indexCast v24
  let c0_13 : Index := 0#32
  ![v25.toNat, 0]
def k0_cond3 (i : grid0.Coords) : BitVec 1 :=
  let arg0 : BitVec 32 := BitVec.ofNat 32 (i 0).val
  let c25_i32_3 : BitVec 32 := 25#32
  let v8 : BitVec 1 := Scalar.cmpi .sge arg0 c25_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let c25_i32 : BitVec 32 := 25#32
  let c0_i32 : BitVec 32 := 0#32
  let v0 : BitVec 1 := Scalar.cmpi .eq c25_i32 c0_i32
  let c1_i32 : BitVec 32 := 1#32
  let v1 : BitVec 32 := Scalar.select v0 c1_i32 c25_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c25_i32 : BitVec 32 := 25#32
  let v0 : BitVec 32 := Scalar.subi arg0 c25_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  h_S400x128 : 0 < S400x128.numel
  shapeCasts_S400x128_S400x128 : S400x128.ShapeCasts S400x128
  inb_S400x128_S400x128_0_0 : ∀ a, (![0, 0] : Fin 2 → Nat) a + S400x128.size a ≤ S400x128.size a
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  k0_off1_inb : ∀ i : grid0.Coords, ∀ (k0_h2 : k0_cond2 i = 1#1), ∀ a, (k0_off1 i) a + S400x128.size a ≤ S10000x128.size a
  k0_off1_packedbf16 : ∀ i : grid0.Coords, ∀ (k0_h2 : k0_cond2 i = 1#1), (Rect.unit (s := S10000x128) (k0_off1 i) S400x128.size (k0_off1_inb i k0_h2)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .f32 = 32 ∨ (Rect.block (s := S10000x128) S400x128.size (cc0_transform_6 i) (hinb0_6 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.GcnSharedBits.lean ====
/-
  The two-layer graph convolution kernel runs on a grid of 50 points. Point 0 also computes x·W0 into the
  first scratch buffer; points 0..24 (layer 0) each fill rows [400 t, 400 t + 400) of the second scratch buffer
  with relu(adj_block · (x·W0) + b0) · W1; points 25..49 (layer 1) each store adj_block · (second scratch) + b1
  into the output block t - 25. This module states what the three phases share: the branch conditions in closed
  form over the grid, the memrefs the body is called with, the row offset of a layer-0 slice, and where the
  output window is idle or written back.
-/
import proofs.«144543_g23725399343418_cont_8to1_318_4_alg».proof.Proof.Gen.Kernel.Frame
import proofs.«144543_g23725399343418_cont_8to1_318_4_alg».proof.Proof.Gen.Kernel.Skeleton
import Idealize.ShloMosaic.Lib.WritesUnit

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions, decided over the grid -/

/-- The prologue's condition: the point is the first. -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val % 50 = 0 :=
  (by decide +kernel : ∀ t : Fin grid0.N, isFirst (grid0.coords t) ↔ t.val % 50 = 0)

/-- Layer 0's condition: the point is one of the first 25. -/
abbrev inLayer0 (i : grid0.Coords) : Prop := k0_cond2 i = 1#1
theorem inLayer0_iff : ∀ t : Fin cfg0.N, inLayer0 (grid0.coords t) ↔ t.val < 25 :=
  (by decide +kernel : ∀ t : Fin grid0.N, inLayer0 (grid0.coords t) ↔ t.val < 25)

/-- Layer 1's condition: the point is one of the last 25. -/
abbrev inLayer1 (i : grid0.Coords) : Prop := k0_cond3 i = 1#1
theorem inLayer1_iff : ∀ t : Fin cfg0.N, inLayer1 (grid0.coords t) ↔ 25 ≤ t.val :=
  (by decide +kernel : ∀ t : Fin grid0.N, inLayer1 (grid0.coords t) ↔ 25 ≤ t.val)

/-- A layer-0 point t fills the rows from 400 t on. -/
theorem rowOff_eq : ∀ t : Fin cfg0.N, t.val < 25 → k0_off1 (grid0.coords t) = ![400 * t.val, 0] :=
  (by decide +kernel : ∀ t : Fin grid0.N, t.val < 25 → k0_off1 (grid0.coords t) = ![400 * t.val, 0])

/-! ## Where the windows are idle, and where the output block is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The output window is idle exactly at the layer-0 points, -/
theorem outIdle_iff : ∀ t : Fin cfg0.N, cfg0.idle 6 (grid0.coords t) = true ↔ t.val < 25 :=
  (by decide +kernel : ∀ t : Fin grid0.N, idle0 6 (grid0.coords t) = true ↔ t.val < 25)
/-- its block is written back exactly at the layer-1 points, -/
theorem outFlush_iff : ∀ t : Fin cfg0.N, (cfg0.win 6).flush t = true ↔ 25 ≤ t.val :=
  (by decide +kernel : ∀ t : Fin grid0.N, win0_6.flush t = true ↔ 25 ≤ t.val)
/-- and the block written back at point t is block t - 25 of the rows. -/
theorem outIndex_eq : ∀ t : Fin cfg0.N, win0_6.index t (0 : Fin 2) = t.val - 25 ∧ win0_6.index t (1 : Fin 2) = 0 :=
  (by decide +kernel : ∀ t : Fin grid0.N, win0_6.index t (0 : Fin 2) = t.val - 25 ∧ win0_6.index t (1 : Fin 2) = 0)

/-! ## The memrefs the body is called with -/

abbrev stg0 (t : Fin cfg0.N) : Memref sig .tc .vmem S400x10000 .f32 := win0_0.stage (cfg0.slots t 0)
abbrev stg0_whole (t : Fin cfg0.N) : (stg0 t).IsWhole := hstage0_0 ((cfg0.slots t 0).cast nbuf0_0)
abbrev stg1 (t : Fin cfg0.N) : Memref sig .tc .vmem S10000x128 .f32 := win0_1.stage (cfg0.slots t 1)
abbrev stg1_whole (t : Fin cfg0.N) : (stg1 t).IsWhole := hstage0_1 ((cfg0.slots t 1).cast nbuf0_1)
abbrev stg2 (t : Fin cfg0.N) : Memref sig .tc .vmem S128x128 .f32 := win0_2.stage (cfg0.slots t 2)
abbrev stg2_whole (t : Fin cfg0.N) : (stg2 t).IsWhole := hstage0_2 ((cfg0.slots t 2).cast nbuf0_2)
abbrev stg3 (t : Fin cfg0.N) : Memref sig .tc .vmem S1x128 .f32 := win0_3.stage (cfg0.slots t 3)
abbrev stg3_whole (t : Fin cfg0.N) : (stg3 t).IsWhole := hstage0_3 ((cfg0.slots t 3).cast nbuf0_3)
abbrev stg4 (t : Fin cfg0.N) : Memref sig .tc .vmem S128x128 .f32 := win0_4.stage (cfg0.slots t 4)
abbrev stg4_whole (t : Fin cfg0.N) : (stg4 t).IsWhole := hstage0_4 ((cfg0.slots t 4).cast nbuf0_4)
abbrev stg5 (t : Fin cfg0.N) : Memref sig .tc .vmem S1x128 .f32 := win0_5.stage (cfg0.slots t 5)
abbrev stg5_whole (t : Fin cfg0.N) : (stg5 t).IsWhole := hstage0_5 ((cfg0.slots t 5).cast nbuf0_5)
abbrev stg6 (t : Fin cfg0.N) : Memref sig .tc .vmem S400x128 .f32 := win0_6.stage (cfg0.slots t 6)
abbrev stg6_whole (t : Fin cfg0.N) : (stg6 t).IsWhole := hstage0_6 ((cfg0.slots t 6).cast nbuf0_6)
/-- The scratch buffer that holds x·W0, -/
abbrev xwBuf : Memref sig .tc .vmem S10000x128 .bf16 := Memref.whole cc0_scratch0
/-- and the one layer 0 fills slice by slice. -/
abbrev hwBuf : Memref sig .tc .vmem S10000x128 .bf16 := Memref.whole cc0_scratch1
theorem xwBuf_whole : (xwBuf).IsWhole := Memref.isWhole_whole _
theorem hwBuf_whole : (hwBuf).IsWhole := Memref.isWhole_whole _

/-- What the launch hands the region beside the windows: both scratch buffers at some contents and the
    generator register at some state. -/
theorem scratch_any (c : Dev nD) :
    (Pipeline.ΦA spec0 c : sProp 𝕄)
      = iprop(iprop((∃ d, owns (c : Thread nD τ) xwBuf fullShare d) ∗ (∃ d, owns (c : Thread nD τ) hwBuf fullShare d)) ∗ (∃ r, prngReg c r)) := by
  unfold Pipeline.ΦA; rw [scopedRest0_eq]; simp only [xwBuf, hwBuf, owns_whole]; try rfl

end Cert.Kernel.Body

end
-- ==== Proof.GcnRunFirstBits.lean ====
/-
  The body at the first point: it computes x·W0 into the first scratch buffer (whatever that held), then, as at every
  layer-0 point, stores relu(adj_block · (x·W0) + b0) · W1 into rows [0, 400) of the second scratch buffer.
-/
import proofs.«144543_g23725399343418_cont_8to1_318_4_alg».proof.Proof.GcnSharedBits

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's triple at the first point, with the lists of stores it leaves on the two scratch buffers (found by
    running the body). -/
noncomputable def runFirst (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .bf16) (harg8 : arg8.IsWhole) (arg9 : Memref sig .tc .vmem S10000x128 .bf16) (harg9 : arg9.IsWhole) (hc0 : isFirst i) (hc1 : inLayer0 i) (hc2 : ¬inLayer1 i)
    (x0 : Vec F S400x10000 .f32) (x1 : Vec F S10000x128 .f32) (x2 : Vec F S128x128 .f32) (x3 : Vec F S1x128 .f32) (x4 : Vec F S128x128 .f32) (x5 : Vec F S1x128 .f32) (d7 : Vec F S400x128 .f32) (xs1 : Vec F S10000x128 .bf16) :
    (LS0 : List (View.Piece (Elt F) S10000x128 .bf16)) ×' { LS1 : List (View.Piece (Elt F) S10000x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d7 ∗ (∃ d, owns (c : Thread nD τ) arg8 fullShare d) ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d7 ∗ (∃ f, arg8.view.loc (c : Thread nD τ) ↦[arg8.view.set]{fullShare} arg8.view.writes (Elt F) f LS0) ∗ (arg9.view.loc (c : Thread nD τ) ↦[arg9.view.set]{fullShare} arg9.view.writes (Elt F) (harg9.unread xs1) LS1)) -∗ K ⟨⟩))
          ⊢ wp frame (wpE (defs₀ (F := F)) Variants.none c none) E (cc0__gcn_body i arg1 harg1 arg2 harg2 arg3 harg3 arg4 harg4 arg5 harg5 arg6 harg6 arg7 harg7 arg8 harg8 arg9 harg9) K } := by
  refine ⟨?_, ?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexact HS1

end Cert.Kernel.Body

end
-- ==== Proof.GcnRunLayer0Bits.lean ====
/-
  The body at a layer-0 point after the first (points 1..24): it loads the adjacency block, x·W0 from the first
  scratch buffer, b0 and W1, and stores relu(adj_block · (x·W0) + b0) · W1 into rows [400 t, 400 t + 400) of the
  second scratch buffer; everything else is handed back as found.
-/
import proofs.«144543_g23725399343418_cont_8to1_318_4_alg».proof.Proof.GcnRunFirstBits

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's triple at a layer-0 point that is not the first, with the list of stores it leaves on the second
    scratch buffer (found by running the body). -/
noncomputable def runLayer0 (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .bf16) (harg8 : arg8.IsWhole) (arg9 : Memref sig .tc .vmem S10000x128 .bf16) (harg9 : arg9.IsWhole) (hc0 : ¬isFirst i) (hc1 : inLayer0 i) (hc2 : ¬inLayer1 i)
    (x0 : Vec F S400x10000 .f32) (x1 : Vec F S10000x128 .f32) (x2 : Vec F S128x128 .f32) (x3 : Vec F S1x128 .f32) (x4 : Vec F S128x128 .f32) (x5 : Vec F S1x128 .f32) (d7 : Vec F S400x128 .f32) (xs0 xs1 : Vec F S10000x128 .bf16) :
    { LS1 : List (View.Piece (Elt F) S10000x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d7 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d7 ∗ owns (c : Thread nD τ) arg8 fullShare xs0 ∗ (arg9.view.loc (c : Thread nD τ) ↦[arg9.view.set]{fullShare} arg9.view.writes (Elt F) (harg9.unread xs1) LS1)) -∗ K ⟨⟩))
          ⊢ wp frame (wpE (defs₀ (F := F)) Variants.none c none) E (cc0__gcn_body i arg1 harg1 arg2 harg2 arg3 harg3 arg4 harg4 arg5 harg5 arg6 harg6 arg7 harg7 arg8 harg8 arg9 harg9) K } := by
  refine ⟨?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0; obtain rfl := harg9.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]
    · iexists _; isplitr; · ipureintro; exact harg8.read_unread _
      iexact HS0
    iexact HS1

end Cert.Kernel.Body

end
-- ==== Proof.GcnRunLayer1Bits.lean ====
/-
  The body at a layer-1 point (points 25..49): it loads the adjacency block, the whole second scratch buffer and b1,
  and stores adj_block · (second scratch) + b1 into the output block; the scratch buffers are handed back as found.
-/
import proofs.«144543_g23725399343418_cont_8to1_318_4_alg».proof.Proof.GcnRunLayer0Bits

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's triple at a layer-1 point, with the list of stores it leaves on the output's staging buffer (found by
    running the body). -/
noncomputable def runLayer1 (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .bf16) (harg8 : arg8.IsWhole) (arg9 : Memref sig .tc .vmem S10000x128 .bf16) (harg9 : arg9.IsWhole) (hc0 : ¬isFirst i) (hc1 : ¬inLayer0 i) (hc2 : inLayer1 i)
    (x0 : Vec F S400x10000 .f32) (x1 : Vec F S10000x128 .f32) (x2 : Vec F S128x128 .f32) (x3 : Vec F S1x128 .f32) (x4 : Vec F S128x128 .f32) (x5 : Vec F S1x128 .f32) (xs0 xs1 : Vec F S10000x128 .bf16) :
    { LO : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f LO) ∗ owns (c : Thread nD τ) arg8 fullShare xs0 ∗ owns (c : Thread nD τ) arg9 fullShare xs1) -∗ K ⟨⟩))
          ⊢ wp frame (wpE (defs₀ (F := F)) Variants.none c none) E (cc0__gcn_body i arg1 harg1 arg2 harg2 arg3 harg3 arg4 harg4 arg5 harg5 arg6 harg6 arg7 harg7 arg8 harg8 arg9 harg9) K } := by
  refine ⟨?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0; obtain rfl := harg9.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]
    · iexists _; isplitr; · ipureintro; exact harg8.read_unread _
      iexact HS0
    iexists _; isplitr; · ipureintro; exact harg9.read_unread _
    iexact HS1

end Cert.Kernel.Body

end
-- ==== Proof.GcnPiecesBits.lean ====
/-
  What the three runs leave, read back as functions of what the point loaded:
  the first point's whole store into the first scratch buffer is x·W0 as the kernel computes it; a layer-0 point's store
  into the second scratch buffer is its 400-row slice of relu(adj_block · (x·W0) + b0) · W1, every other row kept;
  a layer-1 point's whole store into the output block is adj_block · (second scratch) + b1.
-/
import proofs.«144543_g23725399343418_cont_8to1_318_4_alg».proof.Proof.GcnRunLayer1Bits
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem zero2 : (![0, 0] : Fin 2 → ℕ) = fun _ => 0 := by
  funext a; match a with | ⟨0, _⟩ => rfl | ⟨1, _⟩ => rfl

/-! ## The first point -/

section First
variable (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .bf16) (harg8 : arg8.IsWhole) (arg9 : Memref sig .tc .vmem S10000x128 .bf16) (harg9 : arg9.IsWhole) (hc0 : isFirst i) (hc1 : inLayer0 i) (hc2 : ¬inLayer1 i)
  (x0 : Vec F S400x10000 .f32) (x1 : Vec F S10000x128 .f32) (x2 : Vec F S128x128 .f32) (x3 : Vec F S1x128 .f32) (x4 : Vec F S128x128 .f32) (x5 : Vec F S1x128 .f32) (d7 : Vec F S400x128 .f32) (xs1 : Vec F S10000x128 .bf16)

/-- The first point's one store into the first scratch buffer covers it. -/
theorem first_cover (y : S10000x128.Idx) :
    ∃ pc ∈ (runFirst c i arg1 harg1 arg2 harg2 arg3 harg3 arg4 harg4 arg5 harg5 arg6 harg6 arg7 harg7 arg8 harg8 arg9 harg9 hc0 hc1 hc2 x0 x1 x2 x3 x4 x5 d7 xs1).1, y ∈ pc.1.set :=
  View.cover_of_tiledL (runFirst c i arg1 harg1 arg2 harg2 arg3 harg3 arg4 harg4 arg5 harg5 arg6 harg6 arg7 harg7 arg8 harg8 arg9 harg9 hc0 hc1 hc2 x0 x1 x2 x3 x4 x5 d7 xs1).1 S10000x128.size (by sl_kernel_rfl) y

/-- It leaves x·W0 there, as the kernel computes it from the x and W0 blocks. -/
theorem first_xw :
    View.canon (runFirst c i arg1 harg1 arg2 harg2 arg3 harg3 arg4 harg4 arg5 harg5 arg6 harg6 arg7 harg7 arg8 harg8 arg9 harg9 hc0 hc1 hc2 x0 x1 x2 x3 x4 x5 d7 xs1).1 = k0_pay1 x1 x2 := by
  unfold runFirst; dsimp only; sl_unfold_words
  rw [View.canon_unit_zero zero2]
  simp only [View.readAt_eq_ld, harg2.read_unread, harg3.read_unread, View.ld_unit_zero (S := S10000x128) zero2,
    View.ld_unit_zero (S := S128x128) zero2]

/-- A row of the first point's slice of the second scratch buffer holds the layer-0 result computed from x·W0. -/
theorem first_rows_in (o : ℕ) (hoff : k0_off1 i = ![o, 0]) (y : S10000x128.Idx) (r : S400x128.Idx)
    (h0 : (y 0).val = o + (r 0).val) (h1 : (y 1).val = (r 1).val) :
    arg9.view.read (Elt F) (arg9.view.writes (Elt F) (harg9.unread xs1) (runFirst c i arg1 harg1 arg2 harg2 arg3 harg3 arg4 harg4 arg5 harg5 arg6 harg6 arg7 harg7 arg8 harg8 arg9 harg9 hc0 hc1 hc2 x0 x1 x2 x3 x4 x5 d7 xs1).2.1) y
      = k0_pay3 x0 (k0_pay1 x1 x2) x3 x4 r := by
  unfold runFirst; dsimp only
  rw [View.read_writes_cons_rows_of_mem (off := k0_off1 i) (size := ![400, 128]) (o := o) _ _ _ _ _ y r hoff h0 h1]
  simp only [runFirst.sl.v11, runFirst.sl.HS0_1, View.readAt_eq_ld, harg1.read_unread, harg2.read_unread, harg3.read_unread, harg4.read_unread, harg5.read_unread,
    View.readCov_unit_zero (S := S10000x128) _ zero2,
    View.ld_unit_zero (S := S10000x128) zero2, View.ld_unit_zero (S := S128x128) zero2,
    View.ld_unit_zero (S := S400x10000) zero2, View.ld_unit_zero (S := S1x128) zero2]

/-- Every other row keeps what the buffer held. -/
theorem first_rows_out (o : ℕ) (hoff : k0_off1 i = ![o, 0]) (y : S10000x128.Idx)
    (h : (y 0).val < o ∨ o + 400 ≤ (y 0).val) :
    arg9.view.read (Elt F) (arg9.view.writes (Elt F) (harg9.unread xs1) (runFirst c i arg1 harg1 arg2 harg2 arg3 harg3 arg4 harg4 arg5 harg5 arg6 harg6 arg7 harg7 arg8 harg8 arg9 harg9 hc0 hc1 hc2 x0 x1 x2 x3 x4 x5 d7 xs1).2.1) y
      = xs1 y := by
  unfold runFirst; dsimp only
  rw [View.read_writes_cons_rows_of_not_mem (off := k0_off1 i) (size := ![400, 128]) (o := o) (W := 400) _ _ _ _ _ y hoff rfl h, View.writes_nil, harg9.read_unread]

end First

/-! ## A later layer-0 point -/

section Layer0
variable (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .bf16) (harg8 : arg8.IsWhole) (arg9 : Memref sig .tc .vmem S10000x128 .bf16) (harg9 : arg9.IsWhole) (hc0 : ¬isFirst i) (hc1 : inLayer0 i) (hc2 : ¬inLayer1 i)
  (x0 : Vec F S400x10000 .f32) (x1 : Vec F S10000x128 .f32) (x2 : Vec F S128x128 .f32) (x3 : Vec F S1x128 .f32) (x4 : Vec F S128x128 .f32) (x5 : Vec F S1x128 .f32) (d7 : Vec F S400x128 .f32) (xs0 xs1 : Vec F S10000x128 .bf16)

/-- A row of the point's slice holds the layer-0 result computed from the first scratch buffer's contents. -/
theorem layer0_rows_in (o : ℕ) (hoff : k0_off1 i = ![o, 0]) (y : S10000x128.Idx) (r : S400x128.Idx)
    (h0 : (y 0).val = o + (r 0).val) (h1 : (y 1).val = (r 1).val) :
    arg9.view.read (Elt F) (arg9.view.writes (Elt F) (harg9.unread xs1) (runLayer0 c i arg1 harg1 arg2 harg2 arg3 harg3 arg4 harg4 arg5 harg5 arg6 harg6 arg7 harg7 arg8 harg8 arg9 harg9 hc0 hc1 hc2 x0 x1 x2 x3 x4 x5 d7 xs0 xs1).1) y
      = k0_pay3 x0 xs0 x3 x4 r := by
  unfold runLayer0; dsimp only
  rw [View.read_writes_cons_rows_of_mem (off := k0_off1 i) (size := ![400, 128]) (o := o) _ _ _ _ _ y r hoff h0 h1]
  simp only [View.readAt_eq_ld, harg1.read_unread, harg8.read_unread, harg4.read_unread, harg5.read_unread,
    View.ld_unit_zero (S := S10000x128) zero2, View.ld_unit_zero (S := S128x128) zero2,
    View.ld_unit_zero (S := S400x10000) zero2, View.ld_unit_zero (S := S1x128) zero2]

/-- Every other row keeps what the buffer held. -/
theorem layer0_rows_out (o : ℕ) (hoff : k0_off1 i = ![o, 0]) (y : S10000x128.Idx)
    (h : (y 0).val < o ∨ o + 400 ≤ (y 0).val) :
    arg9.view.read (Elt F) (arg9.view.writes (Elt F) (harg9.unread xs1) (runLayer0 c i arg1 harg1 arg2 harg2 arg3 harg3 arg4 harg4 arg5 harg5 arg6 harg6 arg7 harg7 arg8 harg8 arg9 harg9 hc0 hc1 hc2 x0 x1 x2 x3 x4 x5 d7 xs0 xs1).1) y
      = xs1 y := by
  unfold runLayer0; dsimp only
  rw [View.read_writes_cons_rows_of_not_mem (off := k0_off1 i) (size := ![400, 128]) (o := o) (W := 400) _ _ _ _ _ y hoff rfl h, View.writes_nil, harg9.read_unread]

end Layer0

/-! ## A layer-1 point -/

section Layer1
variable (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .bf16) (harg8 : arg8.IsWhole) (arg9 : Memref sig .tc .vmem S10000x128 .bf16) (harg9 : arg9.IsWhole) (hc0 : ¬isFirst i) (hc1 : ¬inLayer0 i) (hc2 : inLayer1 i)
  (x0 : Vec F S400x10000 .f32) (x1 : Vec F S10000x128 .f32) (x2 : Vec F S128x128 .f32) (x3 : Vec F S1x128 .f32) (x4 : Vec F S128x128 .f32) (x5 : Vec F S1x128 .f32) (xs0 xs1 : Vec F S10000x128 .bf16)

/-- The point's one store into the output's staging buffer covers it. -/
theorem layer1_cover (y : S400x128.Idx) :
    ∃ pc ∈ (runLayer1 c i arg1 harg1 arg2 harg2 arg3 harg3 arg4 harg4 arg5 harg5 arg6 harg6 arg7 harg7 arg8 harg8 arg9 harg9 hc0 hc1 hc2 x0 x1 x2 x3 x4 x5 xs0 xs1).1, y ∈ pc.1.set :=
  View.cover_of_tiledL (runLayer1 c i arg1 harg1 arg2 harg2 arg3 harg3 arg4 harg4 arg5 harg5 arg6 harg6 arg7 harg7 arg8 harg8 arg9 harg9 hc0 hc1 hc2 x0 x1 x2 x3 x4 x5 xs0 xs1).1 S400x128.size (by sl_kernel_rfl) y

/-- It leaves adj_block · (second scratch) + b1 there. -/
theorem layer1_out :
    View.canon (runLayer1 c i arg1 harg1 arg2 harg2 arg3 harg3 arg4 harg4 arg5 harg5 arg6 harg6 arg7 harg7 arg8 harg8 arg9 harg9 hc0 hc1 hc2 x0 x1 x2 x3 x4 x5 xs0 xs1).1 = k0_pay4 x0 xs1 x5 := by
  unfold runLayer1; dsimp only
  rw [View.canon_unit_zero zero2]
  simp only [View.readAt_eq_ld, harg1.read_unread, harg9.read_unread, harg6.read_unread,
    View.ld_unit_zero (S := S10000x128) zero2, View.ld_unit_zero (S := S400x10000) zero2, View.ld_unit_zero (S := S1x128) zero2]

end Layer1

end Cert.Kernel.Body

end
-- ==== Proof.GcnFrameBits.lean ====
/-
  The kernel's run over its 50 grid points. Between points the kernel carries two scratch buffers: after the first
  point the first one holds x·W0, and the second one holds, on the rows the layer-0 points so far have filled,
  relu(adj · (x·W0) + b0) · W1; its other rows hold whatever they held. From point 25 on the second buffer is full,
  and each layer-1 point leaves adj_block · (second buffer) + b1 in the output's staging buffer, which is written back
  to block t - 25 of the result. The output's staging buffer is untouched during layer 0.
-/
import proofs.«144543_g23725399343418_cont_8to1_318_4_alg».proof.Proof.GcnPiecesBits
import Idealize.ShloMosaic.Lib.ValueIdx

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx (ix2 idx2_lt0)

variable (m : (ℓ : Loc nD τ sig) → Buf (Elt F) ℓ) (ρ : Dev nD → PrngReg)

/-! ## What the scratch buffers hold -/

/-- The first grid point. -/
def tFirst : Fin cfg0.N := ⟨0, lt_of_lt_of_eq (by omega : 0 < 50) N_0.symm⟩

/-- x·W0 as the kernel computes it at the first point, from the blocks of x and W0 it finds there. -/
def xwOf (c : Dev nD) : Vec F S10000x128 .bf16 := k0_pay1 (iblk m c 1 tFirst) (iblk m c 2 tFirst)

/-- The layer-0 point that fills row r, -/
def rowPoint (r : Fin 10000) : Fin cfg0.N := ⟨r.val / 400, lt_of_lt_of_eq (by have := r.isLt; omega : r.val / 400 < 50) N_0.symm⟩
/-- and the row's position within that point's slice. -/
def rowLocal (r : Fin 10000) : Fin 400 := ⟨r.val % 400, Nat.mod_lt _ (by omega)⟩

/-- The second scratch buffer once layer 0 is over: row r is row r % 400 of what point r / 400 computed. -/
def hwOf (c : Dev nD) : Vec F S10000x128 .bf16 := fun y =>
  k0_pay3 (iblk m c 0 (rowPoint (y 0))) (xwOf m c) (iblk m c 3 (rowPoint (y 0))) (iblk m c 4 (rowPoint (y 0)))
    (ix2 (rowLocal (y 0)) (y 1))

/-- Contents d agree with H on the rows the first n layer-0 points fill. -/
def filledTo (H d : Vec F S10000x128 .bf16) (n : ℕ) : Prop := ∀ y : S10000x128.Idx, (y 0).val < 400 * n → d y = H y

/-- Filling point t's slice extends the filled rows by that slice. -/
theorem filled_step (c : Dev nD) (t : Fin cfg0.N) (ht : t.val < 25) (d d' : Vec F S10000x128 .bf16)
    (hd : filledTo (hwOf m c) d t.val)
    (hin : ∀ (y : S10000x128.Idx) (r : S400x128.Idx), (y 0).val = 400 * t.val + (r 0).val → (y 1).val = (r 1).val →
      d' y = k0_pay3 (iblk m c 0 t) (xwOf m c) (iblk m c 3 t) (iblk m c 4 t) r)
    (hout : ∀ y : S10000x128.Idx, ((y 0).val < 400 * t.val ∨ 400 * t.val + 400 ≤ (y 0).val) → d' y = d y) :
    filledTo (hwOf m c) d' (t.val + 1) := by
  intro y hy
  by_cases h : (y 0).val < 400 * t.val
  · rw [hout y (Or.inl h)]; exact hd y h
  · have hpt : rowPoint (y 0) = t := Fin.ext (by show (y 0).val / 400 = t.val; omega)
    rw [hin y (ix2 (rowLocal (y 0)) (y 1)) (by show (y 0).val = 400 * t.val + (y 0).val % 400; omega) rfl]
    unfold hwOf; rw [hpt]

/-- Once all 25 slices are filled the contents are the whole layer-0 result. -/
theorem filled_all (H d : Vec F S10000x128 .bf16) (n : ℕ) (hn : 25 ≤ n) (h : filledTo H d n) : d = H :=
  funext fun y => h y (by have := idx2_lt0 y; omega)

/-! ## The invariant between points -/

/-- Before point n: at the start whatever the launch hands over; afterwards the first scratch buffer at x·W0, the second
    at contents filled up to row 400 n, and the generator register at some state. -/
def carried (c : Dev nD) : ℕ → sProp 𝕄
  | 0 => Pipeline.ΦA spec0 c
  | n + 1 => iprop(iprop(owns (c : Thread nD τ) xwBuf fullShare (xwOf m c) ∗ (∃ d, ⌜filledTo (hwOf m c) d (n + 1)⌝ ∗ owns (c : Thread nD τ) hwBuf fullShare d)) ∗ (∃ r, prngReg c r))

theorem carried_succ (c : Dev nD) (n : ℕ) :
    carried m c (n + 1) = iprop(iprop(owns (c : Thread nD τ) xwBuf fullShare (xwOf m c) ∗ (∃ d, ⌜filledTo (hwOf m c) d (n + 1)⌝ ∗ owns (c : Thread nD τ) hwBuf fullShare d)) ∗ (∃ r, prngReg c r)) := rfl

theorem carried_pos (c : Dev nD) (n : ℕ) (hz : n ≠ 0) :
    carried m c n = iprop(iprop(owns (c : Thread nD τ) xwBuf fullShare (xwOf m c) ∗ (∃ d, ⌜filledTo (hwOf m c) d n⌝ ∗ owns (c : Thread nD τ) hwBuf fullShare d)) ∗ (∃ r, prngReg c r)) := by
  cases n with
  | zero => exact absurd rfl hz
  | succ n => rfl

/-! ## The proof data -/

/-- The arrays as the region finds them; after the body each input's buffer at its block and the output's at
    adj_block · (layer-0 result) + b1 (consulted only at the layer-1 points, where the body stores it). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay4 (iblk m c 0 t) (hwOf m c) (iblk m c 5 t)
  Φ t := carried m c t.val
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_out (c : Dev nD) (t : Fin cfg0.N) :
    (dats m 0 c).after 6 t = k0_pay4 (iblk m c 0 t) (hwOf m c) (iblk m c 5 t) := by dsimp only [dats]

theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d
theorem before_in2 (c : Dev nD) (t : Fin cfg0.N) (d) : (dats m 0 c).before 2 t d = iblk m c 2 t :=
  before0_2_of m (dats m 0 c) (A_eq m c 2) (after_in2 m c) t d
theorem before_in3 (c : Dev nD) (t : Fin cfg0.N) (d) : (dats m 0 c).before 3 t d = iblk m c 3 t :=
  before0_3_of m (dats m 0 c) (A_eq m c 3) (after_in3 m c) t d
theorem before_in4 (c : Dev nD) (t : Fin cfg0.N) (d) : (dats m 0 c).before 4 t d = iblk m c 4 t :=
  before0_4_of m (dats m 0 c) (A_eq m c 4) (after_in4 m c) t d
theorem before_in5 (c : Dev nD) (t : Fin cfg0.N) (d) : (dats m 0 c).before 5 t d = iblk m c 5 t :=
  before0_5_of m (dats m 0 c) (A_eq m c 5) (after_in5 m c) t d

/-! ## The body obligation -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- What the first point leaves in the second scratch buffer is filled up to row 400. -/
theorem first_filled (c : Dev nD) (t : Fin cfg0.N) (hz : t = tFirst) (h1 : t.val < 25)
    (hc0 : isFirst (grid0.coords t)) (hc1 : inLayer0 (grid0.coords t)) (hc2 : ¬inLayer1 (grid0.coords t))
    (d7 : Vec F S400x128 .f32) (d9 : Vec F S10000x128 .bf16) :
    filledTo (hwOf m c) (hwBuf.view.read (Elt F) (hwBuf.view.writes (Elt F) (hwBuf_whole.unread d9)
      (runFirst c (grid0.coords t) (stg0 t) (stg0_whole t) (stg1 t) (stg1_whole t) (stg2 t) (stg2_whole t) (stg3 t) (stg3_whole t) (stg4 t) (stg4_whole t) (stg5 t) (stg5_whole t) (stg6 t) (stg6_whole t) xwBuf xwBuf_whole hwBuf hwBuf_whole hc0 hc1 hc2
        (iblk m c 0 t) (iblk m c 1 t) (iblk m c 2 t) (iblk m c 3 t) (iblk m c 4 t) (iblk m c 5 t) d7 d9).2.1)) (t.val + 1) := by
  refine filled_step m c t h1 d9 _ (fun y hy => absurd hy (by subst hz; exact Nat.not_lt_zero _)) (fun y r h0 h1' => ?_) (fun y h => ?_)
  · subst hz
    exact first_rows_in c _ _ _ _ _ _ _ _ _ _ _ _ _ _ _ _ _ _ _ hc0 hc1 hc2 _ _ _ _ _ _ d7 d9 _ (rowOff_eq tFirst h1) y r h0 h1'
  · exact first_rows_out c _ _ _ _ _ _ _ _ _ _ _ _ _ _ _ _ _ _ _ hc0 hc1 hc2 _ _ _ _ _ _ d7 d9 _ (rowOff_eq t h1) y h

/-- What a later layer-0 point leaves there is filled one slice further. -/
theorem layer0_filled (c : Dev nD) (t : Fin cfg0.N) (h1 : t.val < 25)
    (hc0 : ¬isFirst (grid0.coords t)) (hc1 : inLayer0 (grid0.coords t)) (hc2 : ¬inLayer1 (grid0.coords t))
    (d7 : Vec F S400x128 .f32) (d9 : Vec F S10000x128 .bf16) (hd9 : filledTo (hwOf m c) d9 t.val) :
    filledTo (hwOf m c) (hwBuf.view.read (Elt F) (hwBuf.view.writes (Elt F) (hwBuf_whole.unread d9)
      (runLayer0 c (grid0.coords t) (stg0 t) (stg0_whole t) (stg1 t) (stg1_whole t) (stg2 t) (stg2_whole t) (stg3 t) (stg3_whole t) (stg4 t) (stg4_whole t) (stg5 t) (stg5_whole t) (stg6 t) (stg6_whole t) xwBuf xwBuf_whole hwBuf hwBuf_whole hc0 hc1 hc2
        (iblk m c 0 t) (iblk m c 1 t) (iblk m c 2 t) (iblk m c 3 t) (iblk m c 4 t) (iblk m c 5 t) d7 (xwOf m c) d9).1)) (t.val + 1) := by
  refine filled_step m c t h1 d9 _ hd9 (fun y r h0 h1' => ?_) (fun y h => ?_)
  · exact layer0_rows_in c _ _ _ _ _ _ _ _ _ _ _ _ _ _ _ _ _ _ _ hc0 hc1 hc2 _ _ _ _ _ _ d7 _ d9 _ (rowOff_eq t h1) y r h0 h1'
  · exact layer0_rows_out c _ _ _ _ _ _ _ _ _ _ _ _ _ _ _ _ _ _ _ hc0 hc1 hc2 _ _ _ _ _ _ d7 _ d9 _ (rowOff_eq t h1) y h

set_option maxHeartbeats 4000000 in
/-- The body at any point, by the phase the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5]
  rw [show (dats m 0 c).owesAt () t.succ = (dats m 0 c).owesAt () t.castSucc from rfl]
  rw [show (dats m 0 c).Φ t.succ = carried m c (t.val + 1) from rfl,
    show (dats m 0 c).Φ t.castSucc = carried m c t.val from by dsimp only [dats]; simp only [Fin.coe_castSucc]]
  rw [show (dats m 0 c).leavesExact 0 t = owns (c : Thread nD τ) (stg0 t) fullShare ((dats m 0 c).after 0 t) from by
      unfold Dat.leavesExact; rw [live0 t], after_in0]
  rw [show (dats m 0 c).leavesExact 1 t = owns (c : Thread nD τ) (stg1 t) fullShare ((dats m 0 c).after 1 t) from by
      unfold Dat.leavesExact; rw [live1 t], after_in1]
  rw [show (dats m 0 c).leavesExact 2 t = owns (c : Thread nD τ) (stg2 t) fullShare ((dats m 0 c).after 2 t) from by
      unfold Dat.leavesExact; rw [live2 t], after_in2]
  rw [show (dats m 0 c).leavesExact 3 t = owns (c : Thread nD τ) (stg3 t) fullShare ((dats m 0 c).after 3 t) from by
      unfold Dat.leavesExact; rw [live3 t], after_in3]
  rw [show (dats m 0 c).leavesExact 4 t = owns (c : Thread nD τ) (stg4 t) fullShare ((dats m 0 c).after 4 t) from by
      unfold Dat.leavesExact; rw [live4 t], after_in4]
  rw [show (dats m 0 c).leavesExact 5 t = owns (c : Thread nD τ) (stg5 t) fullShare ((dats m 0 c).after 5 t) from by
      unfold Dat.leavesExact; rw [live5 t], after_in5]
  have hN : t.val < 50 := lt_of_lt_of_eq t.isLt (show cfg0.N = 50 from N_0)
  rw [carried_succ]
  by_cases h1 : t.val < 25
  · rw [(dats m 0 c).leavesExact_idle 6 t ((outIdle_iff t).mpr h1)
      (Bool.eq_false_iff.mpr fun h => by have := (outFlush_iff t).mp h; omega)]
    by_cases hz : t.val = 0
    · rw [show carried m c t.val = Pipeline.ΦA spec0 c from by rw [hz]; rfl, scratch_any]
      iintro ⟨⟨⟨HS0, ⟨%d9, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid0.coords t) _ _ _ _ _ _ _ _ _ _ _ _ _ _ _ _ _ _ ((isFirst_iff t).mpr (by omega)) ((inLayer0_iff t).mpr h1) (fun h => by have := (inLayer1_iff t).mp h; omega) (iblk m c 0 t) (iblk m c 1 t) (iblk m c 2 t) (iblk m c 3 t) (iblk m c 4 t) (iblk m c 5 t) ((dats m 0 c).before 6 t d6) d9).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, HS1⟩
      isplitl [HS0 HS1 Hg]
      · isplitl [HS0 HS1]
        · isplitl [HS0]
          · unfold owns; iexists _; isplitr
            swap; · iexact HS0
            ipureintro
            have ht : t = tFirst := Fin.ext hz
            subst ht
            exact (View.read_writes_eq_canon _ _ _ (first_cover c _ _ _ _ _ _ _ _ _ _ _ _ _ _ _ _ _ _ _ _ _ _ _ _ _ _ _ _ _ _)).trans (first_xw c _ _ _ _ _ _ _ _ _ _ _ _ _ _ _ _ _ _ _ _ _ _ _ _ _ _ _ _ _ _)
          · iexists _; isplitr
            swap
            · unfold owns; iexists _; isplitr
              swap; · iexact HS1
              ipureintro; rfl
            ipureintro
            exact first_filled m c t (Fin.ext hz) h1 _ _ _ _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [carried_pos m c _ hz]
      iintro ⟨⟨⟨HS0, ⟨%d9, %hd9, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply ((runLayer0 c (grid0.coords t) _ _ _ _ _ _ _ _ _ _ _ _ _ _ _ _ _ _ (fun h => hz (by have := (isFirst_iff t).mp h; omega)) ((inLayer0_iff t).mpr h1) (fun h => by have := (inLayer1_iff t).mp h; omega) (iblk m c 0 t) (iblk m c 1 t) (iblk m c 2 t) (iblk m c 3 t) (iblk m c 4 t) (iblk m c 5 t) ((dats m 0 c).before 6 t d6) (xwOf m c) d9).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          · iexists _; isplitr
            swap
            · unfold owns; iexists _; isplitr
              swap; · iexact HS1
              ipureintro; rfl
            ipureintro
            exact layer0_filled m c t h1 _ _ _ _ _ hd9
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := by omega
    rw [show (dats m 0 c).leavesExact 6 t = owns (c : Thread nD τ) (stg6 t) fullShare ((dats m 0 c).after 6 t) from by
      unfold Dat.leavesExact
      rw [show cfg0.idle 6 (grid0.coords t) = false from Bool.eq_false_iff.mpr fun h => by have := (outIdle_iff t).mp h; omega], after_out]
    rw [carried_pos m c _ hz]
    iintro ⟨⟨⟨HS0, ⟨%d9, %hd9, HS1⟩⟩, Hg⟩, Ho, ⟨%d0, H0⟩, ⟨%d1, H1⟩, ⟨%d2, H2⟩, ⟨%d3, H3⟩, ⟨%d4, H4⟩, ⟨%d5, H5⟩, ⟨%d6, H6⟩⟩
    obtain rfl : d9 = hwOf m c := filled_all _ _ _ (by omega) hd9
    iapply ((runLayer1 c (grid0.coords t) _ _ _ _ _ _ _ _ _ _ _ _ _ _ _ _ _ _ (fun h => hz (by have := (isFirst_iff t).mp h; omega)) (fun h => h1 ((inLayer0_iff t).mp h)) ((inLayer1_iff t).mpr (by omega)) (iblk m c 0 t) (iblk m c 1 t) (iblk m c 2 t) (iblk m c 3 t) (iblk m c 4 t) (iblk m c 5 t) (xwOf m c) (hwOf m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, ⟨%e6, H6⟩, HS0, HS1⟩
    isplitl [HS0 HS1 Hg]
    · isplitl [HS0 HS1]
      · isplitl [HS0]
        · iexact HS0
        · iexists _; isplitr
          swap; · iexact HS1
          ipureintro; exact fun y _ => rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro
    exact (View.read_writes_eq_canon _ _ _ (layer1_cover c _ _ _ _ _ _ _ _ _ _ _ _ _ _ _ _ _ _ _ _ _ _ _ _ _ _ _ _ _ _)).trans (layer1_out c _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- After the last point the invariant gives the scratch buffers back at some contents. -/
theorem hout (c : Dev nD) : (dats m 0 c).Φ (Fin.last cfg0.N) ⊢ Pipeline.ΦA spec0 c := by
  rw [show (dats m 0 c).Φ (Fin.last cfg0.N) = carried m c (Fin.last cfg0.N).val from rfl,
    carried_pos m c _ (by rw [Fin.val_last]; have : cfg0.N = 50 := N_0; omega), scratch_any]
  iintro ⟨⟨HS0, ⟨%d, -, HS1⟩⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates, every array of the pipeline at what the proof data says
    (the result array at its blocks written back, the arguments as found), every other unscoped buffer as found. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.GcnShared.lean ====
/-
  The two-layer graph convolution kernel runs on a grid of 50 points. Point 0 also computes x·W0 into the
  first scratch buffer; points 0..24 (layer 0) each fill rows [400 t, 400 t + 400) of the second scratch buffer
  with relu(adj_block · (x·W0) + b0) · W1; points 25..49 (layer 1) each store adj_block · (second scratch) + b1
  into the output block t - 25. This module states what the three phases share: the branch conditions in closed
  form over the grid, the memrefs the body is called with, the row offset of a layer-0 slice, and where the
  output window is idle or written back.
-/
import proofs.«144543_g23725399343418_cont_8to1_318_4_alg».proof.Proof.Gen.KernelIdeal.Frame
import proofs.«144543_g23725399343418_cont_8to1_318_4_alg».proof.Proof.Gen.KernelIdeal.Skeleton
import Idealize.ShloMosaic.Lib.WritesUnit

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch conditions, decided over the grid -/

/-- The prologue's condition: the point is the first. -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val % 50 = 0 :=
  (by decide +kernel : ∀ t : Fin grid0.N, isFirst (grid0.coords t) ↔ t.val % 50 = 0)

/-- Layer 0's condition: the point is one of the first 25. -/
abbrev inLayer0 (i : grid0.Coords) : Prop := k0_cond2 i = 1#1
theorem inLayer0_iff : ∀ t : Fin cfg0.N, inLayer0 (grid0.coords t) ↔ t.val < 25 :=
  (by decide +kernel : ∀ t : Fin grid0.N, inLayer0 (grid0.coords t) ↔ t.val < 25)

/-- Layer 1's condition: the point is one of the last 25. -/
abbrev inLayer1 (i : grid0.Coords) : Prop := k0_cond3 i = 1#1
theorem inLayer1_iff : ∀ t : Fin cfg0.N, inLayer1 (grid0.coords t) ↔ 25 ≤ t.val :=
  (by decide +kernel : ∀ t : Fin grid0.N, inLayer1 (grid0.coords t) ↔ 25 ≤ t.val)

/-- A layer-0 point t fills the rows from 400 t on. -/
theorem rowOff_eq : ∀ t : Fin cfg0.N, t.val < 25 → k0_off1 (grid0.coords t) = ![400 * t.val, 0] :=
  (by decide +kernel : ∀ t : Fin grid0.N, t.val < 25 → k0_off1 (grid0.coords t) = ![400 * t.val, 0])

/-! ## Where the windows are idle, and where the output block is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The output window is idle exactly at the layer-0 points, -/
theorem outIdle_iff : ∀ t : Fin cfg0.N, cfg0.idle 6 (grid0.coords t) = true ↔ t.val < 25 :=
  (by decide +kernel : ∀ t : Fin grid0.N, idle0 6 (grid0.coords t) = true ↔ t.val < 25)
/-- its block is written back exactly at the layer-1 points, -/
theorem outFlush_iff : ∀ t : Fin cfg0.N, (cfg0.win 6).flush t = true ↔ 25 ≤ t.val :=
  (by decide +kernel : ∀ t : Fin grid0.N, win0_6.flush t = true ↔ 25 ≤ t.val)
/-- and the block written back at point t is block t - 25 of the rows. -/
theorem outIndex_eq : ∀ t : Fin cfg0.N, win0_6.index t (0 : Fin 2) = t.val - 25 ∧ win0_6.index t (1 : Fin 2) = 0 :=
  (by decide +kernel : ∀ t : Fin grid0.N, win0_6.index t (0 : Fin 2) = t.val - 25 ∧ win0_6.index t (1 : Fin 2) = 0)

/-! ## The memrefs the body is called with -/

abbrev stg0 (t : Fin cfg0.N) : Memref sig .tc .vmem S400x10000 .f32 := win0_0.stage (cfg0.slots t 0)
abbrev stg0_whole (t : Fin cfg0.N) : (stg0 t).IsWhole := hstage0_0 ((cfg0.slots t 0).cast nbuf0_0)
abbrev stg1 (t : Fin cfg0.N) : Memref sig .tc .vmem S10000x128 .f32 := win0_1.stage (cfg0.slots t 1)
abbrev stg1_whole (t : Fin cfg0.N) : (stg1 t).IsWhole := hstage0_1 ((cfg0.slots t 1).cast nbuf0_1)
abbrev stg2 (t : Fin cfg0.N) : Memref sig .tc .vmem S128x128 .f32 := win0_2.stage (cfg0.slots t 2)
abbrev stg2_whole (t : Fin cfg0.N) : (stg2 t).IsWhole := hstage0_2 ((cfg0.slots t 2).cast nbuf0_2)
abbrev stg3 (t : Fin cfg0.N) : Memref sig .tc .vmem S1x128 .f32 := win0_3.stage (cfg0.slots t 3)
abbrev stg3_whole (t : Fin cfg0.N) : (stg3 t).IsWhole := hstage0_3 ((cfg0.slots t 3).cast nbuf0_3)
abbrev stg4 (t : Fin cfg0.N) : Memref sig .tc .vmem S128x128 .f32 := win0_4.stage (cfg0.slots t 4)
abbrev stg4_whole (t : Fin cfg0.N) : (stg4 t).IsWhole := hstage0_4 ((cfg0.slots t 4).cast nbuf0_4)
abbrev stg5 (t : Fin cfg0.N) : Memref sig .tc .vmem S1x128 .f32 := win0_5.stage (cfg0.slots t 5)
abbrev stg5_whole (t : Fin cfg0.N) : (stg5 t).IsWhole := hstage0_5 ((cfg0.slots t 5).cast nbuf0_5)
abbrev stg6 (t : Fin cfg0.N) : Memref sig .tc .vmem S400x128 .f32 := win0_6.stage (cfg0.slots t 6)
abbrev stg6_whole (t : Fin cfg0.N) : (stg6 t).IsWhole := hstage0_6 ((cfg0.slots t 6).cast nbuf0_6)
/-- The scratch buffer that holds x·W0, -/
abbrev xwBuf : Memref sig .tc .vmem S10000x128 .bf16 := Memref.whole cc0_scratch0
/-- and the one layer 0 fills slice by slice. -/
abbrev hwBuf : Memref sig .tc .vmem S10000x128 .bf16 := Memref.whole cc0_scratch1
theorem xwBuf_whole : (xwBuf).IsWhole := Memref.isWhole_whole _
theorem hwBuf_whole : (hwBuf).IsWhole := Memref.isWhole_whole _

/-- What the launch hands the region beside the windows: both scratch buffers at some contents and the
    generator register at some state. -/
theorem scratch_any (c : Dev nD) :
    (Pipeline.ΦA spec0 c : sProp 𝕄)
      = iprop(iprop((∃ d, owns (c : Thread nD τ) xwBuf fullShare d) ∗ (∃ d, owns (c : Thread nD τ) hwBuf fullShare d)) ∗ (∃ r, prngReg c r)) := by
  unfold Pipeline.ΦA; rw [scopedRest0_eq]; simp only [xwBuf, hwBuf, owns_whole]; try rfl

end Cert.KernelIdeal.Body

end
-- ==== Proof.GcnRunFirst.lean ====
/-
  The body at the first point: it computes x·W0 into the first scratch buffer (whatever that held), then, as at every
  layer-0 point, stores relu(adj_block · (x·W0) + b0) · W1 into rows [0, 400) of the second scratch buffer.
-/
import proofs.«144543_g23725399343418_cont_8to1_318_4_alg».proof.Proof.GcnShared

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's triple at the first point, with the lists of stores it leaves on the two scratch buffers (found by
    running the body). -/
noncomputable def runFirst (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .bf16) (harg8 : arg8.IsWhole) (arg9 : Memref sig .tc .vmem S10000x128 .bf16) (harg9 : arg9.IsWhole) (hc0 : isFirst i) (hc1 : inLayer0 i) (hc2 : ¬inLayer1 i)
    (x0 : Vec F S400x10000 .f32) (x1 : Vec F S10000x128 .f32) (x2 : Vec F S128x128 .f32) (x3 : Vec F S1x128 .f32) (x4 : Vec F S128x128 .f32) (x5 : Vec F S1x128 .f32) (d7 : Vec F S400x128 .f32) (xs1 : Vec F S10000x128 .bf16) :
    (LS0 : List (View.Piece (Elt F) S10000x128 .bf16)) ×' { LS1 : List (View.Piece (Elt F) S10000x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d7 ∗ (∃ d, owns (c : Thread nD τ) arg8 fullShare d) ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d7 ∗ (∃ f, arg8.view.loc (c : Thread nD τ) ↦[arg8.view.set]{fullShare} arg8.view.writes (Elt F) f LS0) ∗ (arg9.view.loc (c : Thread nD τ) ↦[arg9.view.set]{fullShare} arg9.view.writes (Elt F) (harg9.unread xs1) LS1)) -∗ K ⟨⟩))
          ⊢ wp frame (wpE (defs₀ (F := F)) Variants.none c none) E (cc0__gcn_body i arg1 harg1 arg2 harg2 arg3 harg3 arg4 harg4 arg5 harg5 arg6 harg6 arg7 harg7 arg8 harg8 arg9 harg9) K } := by
  refine ⟨?_, ?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexact HS1

end Cert.KernelIdeal.Body

end
-- ==== Proof.GcnRunLayer0.lean ====
/-
  The body at a layer-0 point after the first (points 1..24): it loads the adjacency block, x·W0 from the first
  scratch buffer, b0 and W1, and stores relu(adj_block · (x·W0) + b0) · W1 into rows [400 t, 400 t + 400) of the
  second scratch buffer; everything else is handed back as found.
-/
import proofs.«144543_g23725399343418_cont_8to1_318_4_alg».proof.Proof.GcnRunFirst

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's triple at a layer-0 point that is not the first, with the list of stores it leaves on the second
    scratch buffer (found by running the body). -/
noncomputable def runLayer0 (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .bf16) (harg8 : arg8.IsWhole) (arg9 : Memref sig .tc .vmem S10000x128 .bf16) (harg9 : arg9.IsWhole) (hc0 : ¬isFirst i) (hc1 : inLayer0 i) (hc2 : ¬inLayer1 i)
    (x0 : Vec F S400x10000 .f32) (x1 : Vec F S10000x128 .f32) (x2 : Vec F S128x128 .f32) (x3 : Vec F S1x128 .f32) (x4 : Vec F S128x128 .f32) (x5 : Vec F S1x128 .f32) (d7 : Vec F S400x128 .f32) (xs0 xs1 : Vec F S10000x128 .bf16) :
    { LS1 : List (View.Piece (Elt F) S10000x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d7 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d7 ∗ owns (c : Thread nD τ) arg8 fullShare xs0 ∗ (arg9.view.loc (c : Thread nD τ) ↦[arg9.view.set]{fullShare} arg9.view.writes (Elt F) (harg9.unread xs1) LS1)) -∗ K ⟨⟩))
          ⊢ wp frame (wpE (defs₀ (F := F)) Variants.none c none) E (cc0__gcn_body i arg1 harg1 arg2 harg2 arg3 harg3 arg4 harg4 arg5 harg5 arg6 harg6 arg7 harg7 arg8 harg8 arg9 harg9) K } := by
  refine ⟨?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0; obtain rfl := harg9.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]
    · iexists _; isplitr; · ipureintro; exact harg8.read_unread _
      iexact HS0
    iexact HS1

end Cert.KernelIdeal.Body

end
-- ==== Proof.GcnRunLayer1.lean ====
/-
  The body at a layer-1 point (points 25..49): it loads the adjacency block, the whole second scratch buffer and b1,
  and stores adj_block · (second scratch) + b1 into the output block; the scratch buffers are handed back as found.
-/
import proofs.«144543_g23725399343418_cont_8to1_318_4_alg».proof.Proof.GcnRunLayer0

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's triple at a layer-1 point, with the list of stores it leaves on the output's staging buffer (found by
    running the body). -/
noncomputable def runLayer1 (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .bf16) (harg8 : arg8.IsWhole) (arg9 : Memref sig .tc .vmem S10000x128 .bf16) (harg9 : arg9.IsWhole) (hc0 : ¬isFirst i) (hc1 : ¬inLayer0 i) (hc2 : inLayer1 i)
    (x0 : Vec F S400x10000 .f32) (x1 : Vec F S10000x128 .f32) (x2 : Vec F S128x128 .f32) (x3 : Vec F S1x128 .f32) (x4 : Vec F S128x128 .f32) (x5 : Vec F S1x128 .f32) (xs0 xs1 : Vec F S10000x128 .bf16) :
    { LO : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f LO) ∗ owns (c : Thread nD τ) arg8 fullShare xs0 ∗ owns (c : Thread nD τ) arg9 fullShare xs1) -∗ K ⟨⟩))
          ⊢ wp frame (wpE (defs₀ (F := F)) Variants.none c none) E (cc0__gcn_body i arg1 harg1 arg2 harg2 arg3 harg3 arg4 harg4 arg5 harg5 arg6 harg6 arg7 harg7 arg8 harg8 arg9 harg9) K } := by
  refine ⟨?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0; obtain rfl := harg9.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]
    · iexists _; isplitr; · ipureintro; exact harg8.read_unread _
      iexact HS0
    iexists _; isplitr; · ipureintro; exact harg9.read_unread _
    iexact HS1

end Cert.KernelIdeal.Body

end
-- ==== Proof.GcnPieces.lean ====
/-
  What the three runs leave, read back as functions of what the point loaded:
  the first point's whole store into the first scratch buffer is x·W0 as the kernel computes it; a layer-0 point's store
  into the second scratch buffer is its 400-row slice of relu(adj_block · (x·W0) + b0) · W1, every other row kept;
  a layer-1 point's whole store into the output block is adj_block · (second scratch) + b1.
-/
import proofs.«144543_g23725399343418_cont_8to1_318_4_alg».proof.Proof.GcnRunLayer1
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem zero2 : (![0, 0] : Fin 2 → ℕ) = fun _ => 0 := by
  funext a; match a with | ⟨0, _⟩ => rfl | ⟨1, _⟩ => rfl

/-! ## The first point -/

section First
variable (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .bf16) (harg8 : arg8.IsWhole) (arg9 : Memref sig .tc .vmem S10000x128 .bf16) (harg9 : arg9.IsWhole) (hc0 : isFirst i) (hc1 : inLayer0 i) (hc2 : ¬inLayer1 i)
  (x0 : Vec F S400x10000 .f32) (x1 : Vec F S10000x128 .f32) (x2 : Vec F S128x128 .f32) (x3 : Vec F S1x128 .f32) (x4 : Vec F S128x128 .f32) (x5 : Vec F S1x128 .f32) (d7 : Vec F S400x128 .f32) (xs1 : Vec F S10000x128 .bf16)

/-- The first point's one store into the first scratch buffer covers it. -/
theorem first_cover (y : S10000x128.Idx) :
    ∃ pc ∈ (runFirst c i arg1 harg1 arg2 harg2 arg3 harg3 arg4 harg4 arg5 harg5 arg6 harg6 arg7 harg7 arg8 harg8 arg9 harg9 hc0 hc1 hc2 x0 x1 x2 x3 x4 x5 d7 xs1).1, y ∈ pc.1.set :=
  View.cover_of_tiledL (runFirst c i arg1 harg1 arg2 harg2 arg3 harg3 arg4 harg4 arg5 harg5 arg6 harg6 arg7 harg7 arg8 harg8 arg9 harg9 hc0 hc1 hc2 x0 x1 x2 x3 x4 x5 d7 xs1).1 S10000x128.size (by sl_kernel_rfl) y

/-- It leaves x·W0 there, as the kernel computes it from the x and W0 blocks. -/
theorem first_xw :
    View.canon (runFirst c i arg1 harg1 arg2 harg2 arg3 harg3 arg4 harg4 arg5 harg5 arg6 harg6 arg7 harg7 arg8 harg8 arg9 harg9 hc0 hc1 hc2 x0 x1 x2 x3 x4 x5 d7 xs1).1 = k0_pay1 x1 x2 := by
  unfold runFirst; dsimp only; sl_unfold_words
  rw [View.canon_unit_zero zero2]
  simp only [View.readAt_eq_ld, harg2.read_unread, harg3.read_unread, View.ld_unit_zero (S := S10000x128) zero2,
    View.ld_unit_zero (S := S128x128) zero2]

/-- A row of the first point's slice of the second scratch buffer holds the layer-0 result computed from x·W0. -/
theorem first_rows_in (o : ℕ) (hoff : k0_off1 i = ![o, 0]) (y : S10000x128.Idx) (r : S400x128.Idx)
    (h0 : (y 0).val = o + (r 0).val) (h1 : (y 1).val = (r 1).val) :
    arg9.view.read (Elt F) (arg9.view.writes (Elt F) (harg9.unread xs1) (runFirst c i arg1 harg1 arg2 harg2 arg3 harg3 arg4 harg4 arg5 harg5 arg6 harg6 arg7 harg7 arg8 harg8 arg9 harg9 hc0 hc1 hc2 x0 x1 x2 x3 x4 x5 d7 xs1).2.1) y
      = k0_pay3 x0 (k0_pay1 x1 x2) x3 x4 r := by
  unfold runFirst; dsimp only
  rw [View.read_writes_cons_rows_of_mem (off := k0_off1 i) (size := ![400, 128]) (o := o) _ _ _ _ _ y r hoff h0 h1]
  simp only [runFirst.sl.v11, runFirst.sl.HS0_1, View.readAt_eq_ld, harg1.read_unread, harg2.read_unread, harg3.read_unread, harg4.read_unread, harg5.read_unread,
    View.readCov_unit_zero (S := S10000x128) _ zero2,
    View.ld_unit_zero (S := S10000x128) zero2, View.ld_unit_zero (S := S128x128) zero2,
    View.ld_unit_zero (S := S400x10000) zero2, View.ld_unit_zero (S := S1x128) zero2]

/-- Every other row keeps what the buffer held. -/
theorem first_rows_out (o : ℕ) (hoff : k0_off1 i = ![o, 0]) (y : S10000x128.Idx)
    (h : (y 0).val < o ∨ o + 400 ≤ (y 0).val) :
    arg9.view.read (Elt F) (arg9.view.writes (Elt F) (harg9.unread xs1) (runFirst c i arg1 harg1 arg2 harg2 arg3 harg3 arg4 harg4 arg5 harg5 arg6 harg6 arg7 harg7 arg8 harg8 arg9 harg9 hc0 hc1 hc2 x0 x1 x2 x3 x4 x5 d7 xs1).2.1) y
      = xs1 y := by
  unfold runFirst; dsimp only
  rw [View.read_writes_cons_rows_of_not_mem (off := k0_off1 i) (size := ![400, 128]) (o := o) (W := 400) _ _ _ _ _ y hoff rfl h, View.writes_nil, harg9.read_unread]

end First

/-! ## A later layer-0 point -/

section Layer0
variable (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .bf16) (harg8 : arg8.IsWhole) (arg9 : Memref sig .tc .vmem S10000x128 .bf16) (harg9 : arg9.IsWhole) (hc0 : ¬isFirst i) (hc1 : inLayer0 i) (hc2 : ¬inLayer1 i)
  (x0 : Vec F S400x10000 .f32) (x1 : Vec F S10000x128 .f32) (x2 : Vec F S128x128 .f32) (x3 : Vec F S1x128 .f32) (x4 : Vec F S128x128 .f32) (x5 : Vec F S1x128 .f32) (d7 : Vec F S400x128 .f32) (xs0 xs1 : Vec F S10000x128 .bf16)

/-- A row of the point's slice holds the layer-0 result computed from the first scratch buffer's contents. -/
theorem layer0_rows_in (o : ℕ) (hoff : k0_off1 i = ![o, 0]) (y : S10000x128.Idx) (r : S400x128.Idx)
    (h0 : (y 0).val = o + (r 0).val) (h1 : (y 1).val = (r 1).val) :
    arg9.view.read (Elt F) (arg9.view.writes (Elt F) (harg9.unread xs1) (runLayer0 c i arg1 harg1 arg2 harg2 arg3 harg3 arg4 harg4 arg5 harg5 arg6 harg6 arg7 harg7 arg8 harg8 arg9 harg9 hc0 hc1 hc2 x0 x1 x2 x3 x4 x5 d7 xs0 xs1).1) y
      = k0_pay3 x0 xs0 x3 x4 r := by
  unfold runLayer0; dsimp only
  rw [View.read_writes_cons_rows_of_mem (off := k0_off1 i) (size := ![400, 128]) (o := o) _ _ _ _ _ y r hoff h0 h1]
  simp only [View.readAt_eq_ld, harg1.read_unread, harg8.read_unread, harg4.read_unread, harg5.read_unread,
    View.ld_unit_zero (S := S10000x128) zero2, View.ld_unit_zero (S := S128x128) zero2,
    View.ld_unit_zero (S := S400x10000) zero2, View.ld_unit_zero (S := S1x128) zero2]

/-- Every other row keeps what the buffer held. -/
theorem layer0_rows_out (o : ℕ) (hoff : k0_off1 i = ![o, 0]) (y : S10000x128.Idx)
    (h : (y 0).val < o ∨ o + 400 ≤ (y 0).val) :
    arg9.view.read (Elt F) (arg9.view.writes (Elt F) (harg9.unread xs1) (runLayer0 c i arg1 harg1 arg2 harg2 arg3 harg3 arg4 harg4 arg5 harg5 arg6 harg6 arg7 harg7 arg8 harg8 arg9 harg9 hc0 hc1 hc2 x0 x1 x2 x3 x4 x5 d7 xs0 xs1).1) y
      = xs1 y := by
  unfold runLayer0; dsimp only
  rw [View.read_writes_cons_rows_of_not_mem (off := k0_off1 i) (size := ![400, 128]) (o := o) (W := 400) _ _ _ _ _ y hoff rfl h, View.writes_nil, harg9.read_unread]

end Layer0

/-! ## A layer-1 point -/

section Layer1
variable (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .bf16) (harg8 : arg8.IsWhole) (arg9 : Memref sig .tc .vmem S10000x128 .bf16) (harg9 : arg9.IsWhole) (hc0 : ¬isFirst i) (hc1 : ¬inLayer0 i) (hc2 : inLayer1 i)
  (x0 : Vec F S400x10000 .f32) (x1 : Vec F S10000x128 .f32) (x2 : Vec F S128x128 .f32) (x3 : Vec F S1x128 .f32) (x4 : Vec F S128x128 .f32) (x5 : Vec F S1x128 .f32) (xs0 xs1 : Vec F S10000x128 .bf16)

/-- The point's one store into the output's staging buffer covers it. -/
theorem layer1_cover (y : S400x128.Idx) :
    ∃ pc ∈ (runLayer1 c i arg1 harg1 arg2 harg2 arg3 harg3 arg4 harg4 arg5 harg5 arg6 harg6 arg7 harg7 arg8 harg8 arg9 harg9 hc0 hc1 hc2 x0 x1 x2 x3 x4 x5 xs0 xs1).1, y ∈ pc.1.set :=
  View.cover_of_tiledL (runLayer1 c i arg1 harg1 arg2 harg2 arg3 harg3 arg4 harg4 arg5 harg5 arg6 harg6 arg7 harg7 arg8 harg8 arg9 harg9 hc0 hc1 hc2 x0 x1 x2 x3 x4 x5 xs0 xs1).1 S400x128.size (by sl_kernel_rfl) y

/-- It leaves adj_block · (second scratch) + b1 there. -/
theorem layer1_out :
    View.canon (runLayer1 c i arg1 harg1 arg2 harg2 arg3 harg3 arg4 harg4 arg5 harg5 arg6 harg6 arg7 harg7 arg8 harg8 arg9 harg9 hc0 hc1 hc2 x0 x1 x2 x3 x4 x5 xs0 xs1).1 = k0_pay4 x0 xs1 x5 := by
  unfold runLayer1; dsimp only
  rw [View.canon_unit_zero zero2]
  simp only [View.readAt_eq_ld, harg1.read_unread, harg9.read_unread, harg6.read_unread,
    View.ld_unit_zero (S := S10000x128) zero2, View.ld_unit_zero (S := S400x10000) zero2, View.ld_unit_zero (S := S1x128) zero2]

end Layer1

end Cert.KernelIdeal.Body

end
-- ==== Proof.GcnFrame.lean ====
/-
  The kernel's run over its 50 grid points. Between points the kernel carries two scratch buffers: after the first
  point the first one holds x·W0, and the second one holds, on the rows the layer-0 points so far have filled,
  relu(adj · (x·W0) + b0) · W1; its other rows hold whatever they held. From point 25 on the second buffer is full,
  and each layer-1 point leaves adj_block · (second buffer) + b1 in the output's staging buffer, which is written back
  to block t - 25 of the result. The output's staging buffer is untouched during layer 0.
-/
import proofs.«144543_g23725399343418_cont_8to1_318_4_alg».proof.Proof.GcnPieces
import Idealize.ShloMosaic.Lib.ValueIdx

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx (ix2 idx2_lt0)

variable (m : (ℓ : Loc nD τ sig) → Buf (Elt F) ℓ) (ρ : Dev nD → PrngReg)

/-! ## What the scratch buffers hold -/

/-- The first grid point. -/
def tFirst : Fin cfg0.N := ⟨0, lt_of_lt_of_eq (by omega : 0 < 50) N_0.symm⟩

/-- x·W0 as the kernel computes it at the first point, from the blocks of x and W0 it finds there. -/
def xwOf (c : Dev nD) : Vec F S10000x128 .bf16 := k0_pay1 (iblk m c 1 tFirst) (iblk m c 2 tFirst)

/-- The layer-0 point that fills row r, -/
def rowPoint (r : Fin 10000) : Fin cfg0.N := ⟨r.val / 400, lt_of_lt_of_eq (by have := r.isLt; omega : r.val / 400 < 50) N_0.symm⟩
/-- and the row's position within that point's slice. -/
def rowLocal (r : Fin 10000) : Fin 400 := ⟨r.val % 400, Nat.mod_lt _ (by omega)⟩

/-- The second scratch buffer once layer 0 is over: row r is row r % 400 of what point r / 400 computed. -/
def hwOf (c : Dev nD) : Vec F S10000x128 .bf16 := fun y =>
  k0_pay3 (iblk m c 0 (rowPoint (y 0))) (xwOf m c) (iblk m c 3 (rowPoint (y 0))) (iblk m c 4 (rowPoint (y 0)))
    (ix2 (rowLocal (y 0)) (y 1))

/-- Contents d agree with H on the rows the first n layer-0 points fill. -/
def filledTo (H d : Vec F S10000x128 .bf16) (n : ℕ) : Prop := ∀ y : S10000x128.Idx, (y 0).val < 400 * n → d y = H y

/-- Filling point t's slice extends the filled rows by that slice. -/
theorem filled_step (c : Dev nD) (t : Fin cfg0.N) (ht : t.val < 25) (d d' : Vec F S10000x128 .bf16)
    (hd : filledTo (hwOf m c) d t.val)
    (hin : ∀ (y : S10000x128.Idx) (r : S400x128.Idx), (y 0).val = 400 * t.val + (r 0).val → (y 1).val = (r 1).val →
      d' y = k0_pay3 (iblk m c 0 t) (xwOf m c) (iblk m c 3 t) (iblk m c 4 t) r)
    (hout : ∀ y : S10000x128.Idx, ((y 0).val < 400 * t.val ∨ 400 * t.val + 400 ≤ (y 0).val) → d' y = d y) :
    filledTo (hwOf m c) d' (t.val + 1) := by
  intro y hy
  by_cases h : (y 0).val < 400 * t.val
  · rw [hout y (Or.inl h)]; exact hd y h
  · have hpt : rowPoint (y 0) = t := Fin.ext (by show (y 0).val / 400 = t.val; omega)
    rw [hin y (ix2 (rowLocal (y 0)) (y 1)) (by show (y 0).val = 400 * t.val + (y 0).val % 400; omega) rfl]
    unfold hwOf; rw [hpt]

/-- Once all 25 slices are filled the contents are the whole layer-0 result. -/
theorem filled_all (H d : Vec F S10000x128 .bf16) (n : ℕ) (hn : 25 ≤ n) (h : filledTo H d n) : d = H :=
  funext fun y => h y (by have := idx2_lt0 y; omega)

/-! ## The invariant between points -/

/-- Before point n: at the start whatever the launch hands over; afterwards the first scratch buffer at x·W0, the second
    at contents filled up to row 400 n, and the generator register at some state. -/
def carried (c : Dev nD) : ℕ → sProp 𝕄
  | 0 => Pipeline.ΦA spec0 c
  | n + 1 => iprop(iprop(owns (c : Thread nD τ) xwBuf fullShare (xwOf m c) ∗ (∃ d, ⌜filledTo (hwOf m c) d (n + 1)⌝ ∗ owns (c : Thread nD τ) hwBuf fullShare d)) ∗ (∃ r, prngReg c r))

theorem carried_succ (c : Dev nD) (n : ℕ) :
    carried m c (n + 1) = iprop(iprop(owns (c : Thread nD τ) xwBuf fullShare (xwOf m c) ∗ (∃ d, ⌜filledTo (hwOf m c) d (n + 1)⌝ ∗ owns (c : Thread nD τ) hwBuf fullShare d)) ∗ (∃ r, prngReg c r)) := rfl

theorem carried_pos (c : Dev nD) (n : ℕ) (hz : n ≠ 0) :
    carried m c n = iprop(iprop(owns (c : Thread nD τ) xwBuf fullShare (xwOf m c) ∗ (∃ d, ⌜filledTo (hwOf m c) d n⌝ ∗ owns (c : Thread nD τ) hwBuf fullShare d)) ∗ (∃ r, prngReg c r)) := by
  cases n with
  | zero => exact absurd rfl hz
  | succ n => rfl

/-! ## The proof data -/

/-- The arrays as the region finds them; after the body each input's buffer at its block and the output's at
    adj_block · (layer-0 result) + b1 (consulted only at the layer-1 points, where the body stores it). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay4 (iblk m c 0 t) (hwOf m c) (iblk m c 5 t)
  Φ t := carried m c t.val
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_out (c : Dev nD) (t : Fin cfg0.N) :
    (dats m 0 c).after 6 t = k0_pay4 (iblk m c 0 t) (hwOf m c) (iblk m c 5 t) := by dsimp only [dats]

theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d
theorem before_in2 (c : Dev nD) (t : Fin cfg0.N) (d) : (dats m 0 c).before 2 t d = iblk m c 2 t :=
  before0_2_of m (dats m 0 c) (A_eq m c 2) (after_in2 m c) t d
theorem before_in3 (c : Dev nD) (t : Fin cfg0.N) (d) : (dats m 0 c).before 3 t d = iblk m c 3 t :=
  before0_3_of m (dats m 0 c) (A_eq m c 3) (after_in3 m c) t d
theorem before_in4 (c : Dev nD) (t : Fin cfg0.N) (d) : (dats m 0 c).before 4 t d = iblk m c 4 t :=
  before0_4_of m (dats m 0 c) (A_eq m c 4) (after_in4 m c) t d
theorem before_in5 (c : Dev nD) (t : Fin cfg0.N) (d) : (dats m 0 c).before 5 t d = iblk m c 5 t :=
  before0_5_of m (dats m 0 c) (A_eq m c 5) (after_in5 m c) t d

/-! ## The body obligation -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- What the first point leaves in the second scratch buffer is filled up to row 400. -/
theorem first_filled (c : Dev nD) (t : Fin cfg0.N) (hz : t = tFirst) (h1 : t.val < 25)
    (hc0 : isFirst (grid0.coords t)) (hc1 : inLayer0 (grid0.coords t)) (hc2 : ¬inLayer1 (grid0.coords t))
    (d7 : Vec F S400x128 .f32) (d9 : Vec F S10000x128 .bf16) :
    filledTo (hwOf m c) (hwBuf.view.read (Elt F) (hwBuf.view.writes (Elt F) (hwBuf_whole.unread d9)
      (runFirst c (grid0.coords t) (stg0 t) (stg0_whole t) (stg1 t) (stg1_whole t) (stg2 t) (stg2_whole t) (stg3 t) (stg3_whole t) (stg4 t) (stg4_whole t) (stg5 t) (stg5_whole t) (stg6 t) (stg6_whole t) xwBuf xwBuf_whole hwBuf hwBuf_whole hc0 hc1 hc2
        (iblk m c 0 t) (iblk m c 1 t) (iblk m c 2 t) (iblk m c 3 t) (iblk m c 4 t) (iblk m c 5 t) d7 d9).2.1)) (t.val + 1) := by
  refine filled_step m c t h1 d9 _ (fun y hy => absurd hy (by subst hz; exact Nat.not_lt_zero _)) (fun y r h0 h1' => ?_) (fun y h => ?_)
  · subst hz
    exact first_rows_in c _ _ _ _ _ _ _ _ _ _ _ _ _ _ _ _ _ _ _ hc0 hc1 hc2 _ _ _ _ _ _ d7 d9 _ (rowOff_eq tFirst h1) y r h0 h1'
  · exact first_rows_out c _ _ _ _ _ _ _ _ _ _ _ _ _ _ _ _ _ _ _ hc0 hc1 hc2 _ _ _ _ _ _ d7 d9 _ (rowOff_eq t h1) y h

/-- What a later layer-0 point leaves there is filled one slice further. -/
theorem layer0_filled (c : Dev nD) (t : Fin cfg0.N) (h1 : t.val < 25)
    (hc0 : ¬isFirst (grid0.coords t)) (hc1 : inLayer0 (grid0.coords t)) (hc2 : ¬inLayer1 (grid0.coords t))
    (d7 : Vec F S400x128 .f32) (d9 : Vec F S10000x128 .bf16) (hd9 : filledTo (hwOf m c) d9 t.val) :
    filledTo (hwOf m c) (hwBuf.view.read (Elt F) (hwBuf.view.writes (Elt F) (hwBuf_whole.unread d9)
      (runLayer0 c (grid0.coords t) (stg0 t) (stg0_whole t) (stg1 t) (stg1_whole t) (stg2 t) (stg2_whole t) (stg3 t) (stg3_whole t) (stg4 t) (stg4_whole t) (stg5 t) (stg5_whole t) (stg6 t) (stg6_whole t) xwBuf xwBuf_whole hwBuf hwBuf_whole hc0 hc1 hc2
        (iblk m c 0 t) (iblk m c 1 t) (iblk m c 2 t) (iblk m c 3 t) (iblk m c 4 t) (iblk m c 5 t) d7 (xwOf m c) d9).1)) (t.val + 1) := by
  refine filled_step m c t h1 d9 _ hd9 (fun y r h0 h1' => ?_) (fun y h => ?_)
  · exact layer0_rows_in c _ _ _ _ _ _ _ _ _ _ _ _ _ _ _ _ _ _ _ hc0 hc1 hc2 _ _ _ _ _ _ d7 _ d9 _ (rowOff_eq t h1) y r h0 h1'
  · exact layer0_rows_out c _ _ _ _ _ _ _ _ _ _ _ _ _ _ _ _ _ _ _ hc0 hc1 hc2 _ _ _ _ _ _ d7 _ d9 _ (rowOff_eq t h1) y h

set_option maxHeartbeats 4000000 in
/-- The body at any point, by the phase the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5]
  rw [show (dats m 0 c).owesAt () t.succ = (dats m 0 c).owesAt () t.castSucc from rfl]
  rw [show (dats m 0 c).Φ t.succ = carried m c (t.val + 1) from rfl,
    show (dats m 0 c).Φ t.castSucc = carried m c t.val from by dsimp only [dats]; simp only [Fin.coe_castSucc]]
  rw [show (dats m 0 c).leavesExact 0 t = owns (c : Thread nD τ) (stg0 t) fullShare ((dats m 0 c).after 0 t) from by
      unfold Dat.leavesExact; rw [live0 t], after_in0]
  rw [show (dats m 0 c).leavesExact 1 t = owns (c : Thread nD τ) (stg1 t) fullShare ((dats m 0 c).after 1 t) from by
      unfold Dat.leavesExact; rw [live1 t], after_in1]
  rw [show (dats m 0 c).leavesExact 2 t = owns (c : Thread nD τ) (stg2 t) fullShare ((dats m 0 c).after 2 t) from by
      unfold Dat.leavesExact; rw [live2 t], after_in2]
  rw [show (dats m 0 c).leavesExact 3 t = owns (c : Thread nD τ) (stg3 t) fullShare ((dats m 0 c).after 3 t) from by
      unfold Dat.leavesExact; rw [live3 t], after_in3]
  rw [show (dats m 0 c).leavesExact 4 t = owns (c : Thread nD τ) (stg4 t) fullShare ((dats m 0 c).after 4 t) from by
      unfold Dat.leavesExact; rw [live4 t], after_in4]
  rw [show (dats m 0 c).leavesExact 5 t = owns (c : Thread nD τ) (stg5 t) fullShare ((dats m 0 c).after 5 t) from by
      unfold Dat.leavesExact; rw [live5 t], after_in5]
  have hN : t.val < 50 := lt_of_lt_of_eq t.isLt (show cfg0.N = 50 from N_0)
  rw [carried_succ]
  by_cases h1 : t.val < 25
  · rw [(dats m 0 c).leavesExact_idle 6 t ((outIdle_iff t).mpr h1)
      (Bool.eq_false_iff.mpr fun h => by have := (outFlush_iff t).mp h; omega)]
    by_cases hz : t.val = 0
    · rw [show carried m c t.val = Pipeline.ΦA spec0 c from by rw [hz]; rfl, scratch_any]
      iintro ⟨⟨⟨HS0, ⟨%d9, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid0.coords t) _ _ _ _ _ _ _ _ _ _ _ _ _ _ _ _ _ _ ((isFirst_iff t).mpr (by omega)) ((inLayer0_iff t).mpr h1) (fun h => by have := (inLayer1_iff t).mp h; omega) (iblk m c 0 t) (iblk m c 1 t) (iblk m c 2 t) (iblk m c 3 t) (iblk m c 4 t) (iblk m c 5 t) ((dats m 0 c).before 6 t d6) d9).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, HS1⟩
      isplitl [HS0 HS1 Hg]
      · isplitl [HS0 HS1]
        · isplitl [HS0]
          · unfold owns; iexists _; isplitr
            swap; · iexact HS0
            ipureintro
            have ht : t = tFirst := Fin.ext hz
            subst ht
            exact (View.read_writes_eq_canon _ _ _ (first_cover c _ _ _ _ _ _ _ _ _ _ _ _ _ _ _ _ _ _ _ _ _ _ _ _ _ _ _ _ _ _)).trans (first_xw c _ _ _ _ _ _ _ _ _ _ _ _ _ _ _ _ _ _ _ _ _ _ _ _ _ _ _ _ _ _)
          · iexists _; isplitr
            swap
            · unfold owns; iexists _; isplitr
              swap; · iexact HS1
              ipureintro; rfl
            ipureintro
            exact first_filled m c t (Fin.ext hz) h1 _ _ _ _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [carried_pos m c _ hz]
      iintro ⟨⟨⟨HS0, ⟨%d9, %hd9, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply ((runLayer0 c (grid0.coords t) _ _ _ _ _ _ _ _ _ _ _ _ _ _ _ _ _ _ (fun h => hz (by have := (isFirst_iff t).mp h; omega)) ((inLayer0_iff t).mpr h1) (fun h => by have := (inLayer1_iff t).mp h; omega) (iblk m c 0 t) (iblk m c 1 t) (iblk m c 2 t) (iblk m c 3 t) (iblk m c 4 t) (iblk m c 5 t) ((dats m 0 c).before 6 t d6) (xwOf m c) d9).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          · iexists _; isplitr
            swap
            · unfold owns; iexists _; isplitr
              swap; · iexact HS1
              ipureintro; rfl
            ipureintro
            exact layer0_filled m c t h1 _ _ _ _ _ hd9
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := by omega
    rw [show (dats m 0 c).leavesExact 6 t = owns (c : Thread nD τ) (stg6 t) fullShare ((dats m 0 c).after 6 t) from by
      unfold Dat.leavesExact
      rw [show cfg0.idle 6 (grid0.coords t) = false from Bool.eq_false_iff.mpr fun h => by have := (outIdle_iff t).mp h; omega], after_out]
    rw [carried_pos m c _ hz]
    iintro ⟨⟨⟨HS0, ⟨%d9, %hd9, HS1⟩⟩, Hg⟩, Ho, ⟨%d0, H0⟩, ⟨%d1, H1⟩, ⟨%d2, H2⟩, ⟨%d3, H3⟩, ⟨%d4, H4⟩, ⟨%d5, H5⟩, ⟨%d6, H6⟩⟩
    obtain rfl : d9 = hwOf m c := filled_all _ _ _ (by omega) hd9
    iapply ((runLayer1 c (grid0.coords t) _ _ _ _ _ _ _ _ _ _ _ _ _ _ _ _ _ _ (fun h => hz (by have := (isFirst_iff t).mp h; omega)) (fun h => h1 ((inLayer0_iff t).mp h)) ((inLayer1_iff t).mpr (by omega)) (iblk m c 0 t) (iblk m c 1 t) (iblk m c 2 t) (iblk m c 3 t) (iblk m c 4 t) (iblk m c 5 t) (xwOf m c) (hwOf m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, ⟨%e6, H6⟩, HS0, HS1⟩
    isplitl [HS0 HS1 Hg]
    · isplitl [HS0 HS1]
      · isplitl [HS0]
        · iexact HS0
        · iexists _; isplitr
          swap; · iexact HS1
          ipureintro; exact fun y _ => rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro
    exact (View.read_writes_eq_canon _ _ _ (layer1_cover c _ _ _ _ _ _ _ _ _ _ _ _ _ _ _ _ _ _ _ _ _ _ _ _ _ _ _ _ _ _)).trans (layer1_out c _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- After the last point the invariant gives the scratch buffers back at some contents. -/
theorem hout (c : Dev nD) : (dats m 0 c).Φ (Fin.last cfg0.N) ⊢ Pipeline.ΦA spec0 c := by
  rw [show (dats m 0 c).Φ (Fin.last cfg0.N) = carried m c (Fin.last cfg0.N).val from rfl,
    carried_pos m c _ (by rw [Fin.val_last]; have : cfg0.N = 50 := N_0; omega), scratch_any]
  iintro ⟨⟨HS0, ⟨%d, -, HS1⟩⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates, every array of the pipeline at what the proof data says
    (the result array at its blocks written back, the arguments as found), every other unscoped buffer as found. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.GcnSpec.lean ====
/-
  The two-layer graph convolution as one function of the argument arrays, entry by entry, on the extended reals:
    xw  = x · W0                                   (10000 × 128)
    hid = max (adj · xw + b0, 0)                   (10000 × 128)
    hw  = hid · W1                                 (10000 × 128)
    out = adj · hw + b1                            (10000 × 128)
  every product of matrices a plain finite sum over the contracted axis, the biases added along the rows.
-/
import Idealize.ShloMosaic.PureOps.Ideal.Laws
import Idealize.ShloMosaic.Lib.ValueIdx

noncomputable section

open scoped BigOperators

namespace Gcn

open Idealize.ShloMosaic Idealize.ShloMosaic.ValueIdx

/-- A matrix of extended reals with literal extents. -/
abbrev Mat (a b : Nat) : Type := (⟨2, ![a, b]⟩ : Shape).Idx → EReal
/-- A vector of extended reals with a literal extent. -/
abbrev Row (a : Nat) : Type := (⟨1, ![a]⟩ : Shape).Idx → EReal

/-- Entry (m, l) of x · W0. -/
def xw (x : Mat 10000 128) (W0 : Mat 128 128) (m : Fin 10000) (l : Fin 128) : EReal :=
  ∑ n : Fin 128, x (ix2 m n) * W0 (ix2 n l)

/-- Entry (k, l) of the hidden layer: the rectified adj · (x · W0) + b0. -/
def hid (x : Mat 10000 128) (adj : Mat 10000 10000) (W0 : Mat 128 128) (b0 : Row 128) (k : Fin 10000) (l : Fin 128) : EReal :=
  max ((∑ m : Fin 10000, adj (ix2 k m) * xw x W0 m l) + b0 (ix1 l)) (Ideal.ofBits .f32 0x00000000#32)

/-- Entry (k, q) of hid · W1. -/
def hw (x : Mat 10000 128) (adj : Mat 10000 10000) (W0 : Mat 128 128) (b0 : Row 128) (W1 : Mat 128 128) (k : Fin 10000) (q : Fin 128) : EReal :=
  ∑ l : Fin 128, hid x adj W0 b0 k l * W1 (ix2 l q)

/-- The result: adj · (hid · W1) + b1. -/
def out (x : Mat 10000 128) (adj : Mat 10000 10000) (W0 : Mat 128 128) (b0 : Row 128) (W1 : Mat 128 128) (b1 : Row 128) : Mat 10000 128 :=
  fun j => (∑ k : Fin 10000, adj (ix2 (j 0) k) * hw x adj W0 b0 W1 k (j 1)) + b1 (ix1 (j 1))

end Gcn

end
-- ==== Proof.LibPlainMatmul.lean ====
/-
  A plain matrix product read at an entry.

  For the dimension numbers of an ordinary product — an [a, n] array times an [n, b] array, contracting the second
  axis of the left with the first axis of the right, no batch axis — the product accumulated onto the zero array is, on
  the extended reals, at (p, q) the sum over k of left (p, k) · right (k, q).  The extents are variables, so the
  reading does not change with a kernel's tiling.
-/
import Idealize.ShloMosaic.Lib.ValueIdx
import Idealize.ShloMosaic.PureOps.Ideal.Laws

noncomputable section

open scoped BigOperators

namespace Cert.PlainMatmul

open Idealize.ShloMosaic Idealize.ShloMosaic.ValueIdx

/-- The dimension numbers of an ordinary [a, n] × [n, b] product, over any witness of their well-formedness. -/
abbrev dims {a n b : ℕ}
    (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ :=
  ⟨[1], [0], [0], [1], [], [], wf⟩

/-- An ordinary product onto the zero array: at (p, q) the sum over k of left (p, k) · right (k, q). -/
theorem zero_acc_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    FloatOps.matmul (dims wf) prec L R (constant ⟨2, ![a, b]⟩ .f32 0x00000000#32) (ix2 p q)
      = ∑ k : Fin n, L (ix2 p k) * R (ix2 k q) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 k q :=
    funext fun ax => Fin.ext (by
      match ax with
      | ⟨0, _⟩ => exact ((dims wf).rhsIdx_val_of_single rfl _ _).trans hk
      | ⟨1, _⟩ => rfl)
  rw [el, er]

end Cert.PlainMatmul

end
-- ==== Proof.GcnValue.lean ====
/-
  The value the kernel leaves, on the extended reals. Each block the body loads is read off the argument arrays; the
  three payloads are plain sums (a product onto the zero array is the sum over the contracted axis, a change of float
  format is the identity, the bias row is repeated down the rows); so the first scratch buffer holds x · W0, the second
  one hid · W1, and the block written back at point t holds rows [400 (t - 25), 400 (t - 25) + 400) of
  adj · (hid · W1) + b1. The 25 blocks written back tile the result array.
-/
import proofs.«144543_g23725399343418_cont_8to1_318_4_alg».proof.Proof.GcnFrame
import proofs.«144543_g23725399343418_cont_8to1_318_4_alg».proof.Proof.GcnSpec
import proofs.«144543_g23725399343418_cont_8to1_318_4_alg».proof.Proof.LibPlainMatmul
import Idealize.ShloMosaic.Lib.ValueLayout
import Idealize.ShloMosaic.Lib.Pipeline.Value
import Idealize.ShloMosaic.Lib.StableHlo.Run

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open scoped BigOperators
open Idealize.ShloMosaic.ValueIdx Idealize.ShloMosaic.StableHlo

/-! ## The payloads as sums -/

section Payloads

/-- The bias row kept as [1, 128] and repeated down the 400 rows reads its entry of the column. -/
theorem biasRow_at (b : Vec Ideal S1x128 .f32) (r : Fin 400) (l : Fin 128) :
    broadcastTo S400x128 (shapeCast S1x128 b shapeCasts_S1x128_S1x128) broadcasts_S1x128_S400x128 (ix2 r l)
      = b (ix2 (0 : Fin 1) l) := by
  rw [shapeCast_self]
  exact broadcastTo_1b_ab_apply b _ r l

/-- x · W0 at an entry. -/
theorem xwPay_at (x1 : Vec Ideal S10000x128 .f32) (x2 : Vec Ideal S128x128 .f32) (p : Fin 10000) (l : Fin 128) :
    k0_pay1 (F := Ideal) x1 x2 (ix2 p l) = ∑ n : Fin 128, x1 (ix2 p n) * x2 (ix2 n l) := by
  unfold k0_pay1
  refine (congrFun (shapeCast_self _ shapeCasts_S10000x128_S10000x128) (ix2 p l)).trans ?_
  exact Cert.PlainMatmul.zero_acc_apply dot_S10000x128_S128x128_S10000x128_1_0_0_1_n_n_wf none _ _ p l

/-- A block of rows times a 10000 × 128 array, plus the bias row, at an entry. -/
theorem aggPay_at (a : Vec Ideal S400x10000 .f32) (h : Vec Ideal S10000x128 .bf16) (b : Vec Ideal S1x128 .f32)
    (r : Fin 400) (l : Fin 128) :
    k0_pay4 (F := Ideal) a h b (ix2 r l) = (∑ k : Fin 10000, a (ix2 r k) * h (ix2 k l)) + b (ix2 (0 : Fin 1) l) := by
  unfold k0_pay4 k0_pay2
  exact congrArg₂ (· + ·)
    (Cert.PlainMatmul.zero_acc_apply dot_S400x10000_S10000x128_S400x128_1_0_0_1_n_n_wf none _ _ r l) (biasRow_at b r l)

/-- The layer-0 slice at an entry: the rectified pre-activation row times W1. -/
theorem hwPay_at (a : Vec Ideal S400x10000 .f32) (xw : Vec Ideal S10000x128 .bf16) (b : Vec Ideal S1x128 .f32)
    (w1 : Vec Ideal S128x128 .f32) (r : Fin 400) (q : Fin 128) :
    k0_pay3 (F := Ideal) a xw b w1 (ix2 r q)
      = ∑ l : Fin 128, max (k0_pay4 (F := Ideal) a xw b (ix2 r l)) (Ideal.ofBits .f32 0x00000000#32) * w1 (ix2 l q) := by
  unfold k0_pay3
  refine (congrFun (shapeCast_self _ shapeCasts_S400x128_S400x128) (ix2 r q)).trans ?_
  exact Cert.PlainMatmul.zero_acc_apply dot_S400x128_S128x128_S400x128_1_0_0_1_n_n_wf none _ _ r q

end Payloads

/-! ## The blocks, read off the argument arrays -/

section Blocks
variable {F : FTy → Type} [FloatOps F] (m : (ℓ : Loc nD τ sig) → Buf (Elt F) ℓ)

/-- The windows' block indices, decided over the grid: the adjacency block cycles through the 25 row blocks, every
    other input window is its whole array. -/
theorem blockIndex_facts : ∀ t : Fin cfg0.N,
    win0_0.index t (0 : Fin 2) = t.val % 25 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Row r of the adjacency block at point t is row 400 (t % 25) + r of adj. -/
theorem adjBlock_at (c : Dev nD) (t : Fin cfg0.N) (r : Fin 400) (k : Fin 10000) (p : Fin 10000)
    (hp : p.val = 400 * (t.val % 25) + r.val) :
    iblk m c 0 t (ix2 r k) = m ((c : Thread nD τ).loc main_arg1) (ix2 p k) := by
  show V m c main_arg1 (((cfg0.win 0).blk t).view.emb (ix2 r k)) = _
  rw [V_main_arg1]
  refine congrArg _ (funext fun a => Fin.ext ?_)
  obtain ⟨e0, e1, -⟩ := blockIndex_facts t
  match a with
  | ⟨0, _⟩ => show win0_0.index t (0 : Fin 2) * 400 + 1 * r.val = p.val; omega
  | ⟨1, _⟩ => show win0_0.index t (1 : Fin 2) * 10000 + 1 * k.val = k.val; omega

/-- The x block is all of x. -/
theorem xBlock_eq (c : Dev nD) (t : Fin cfg0.N) :
    (iblk m c 1 t : S10000x128.Idx → Elt F .f32) = m ((c : Thread nD τ).loc main_arg0) := by
  funext y
  show V m c main_arg0 (((cfg0.win 1).blk t).view.emb y) = _
  rw [V_main_arg0]
  refine congrArg _ (funext fun a => Fin.ext ?_)
  obtain ⟨-, -, e0, e1, -⟩ := blockIndex_facts t
  match a with
  | ⟨0, _⟩ => show win0_1.index t (0 : Fin 2) * 10000 + 1 * (y 0).val = (y 0).val; omega
  | ⟨1, _⟩ => show win0_1.index t (1 : Fin 2) * 128 + 1 * (y 1).val = (y 1).val; omega

/-- The W0 block is all of W0. -/
theorem w0Block_eq (c : Dev nD) (t : Fin cfg0.N) :
    (iblk m c 2 t : S128x128.Idx → Elt F .f32) = m ((c : Thread nD τ).loc main_arg2) := by
  funext y
  show V m c main_arg2 (((cfg0.win 2).blk t).view.emb y) = _
  rw [V_main_arg2]
  refine congrArg _ (funext fun a => Fin.ext ?_)
  obtain ⟨-, -, -, -, e0, e1, -⟩ := blockIndex_facts t
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The W1 block is all of W1. -/
theorem w1Block_eq (c : Dev nD) (t : Fin cfg0.N) :
    (iblk m c 4 t : S128x128.Idx → Elt F .f32) = m ((c : Thread nD τ).loc main_arg4) := by
  funext y
  show V m c main_arg4 (((cfg0.win 4).blk t).view.emb y) = _
  rw [V_main_arg4]
  refine congrArg _ (funext fun a => Fin.ext ?_)
  obtain ⟨-, -, -, -, -, -, -, -, e0, e1, -⟩ := blockIndex_facts t
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- The b0 block is b0 laid out as one row. -/
theorem b0Block_at (c : Dev nD) (t : Fin cfg0.N) (l : Fin 128) :
    iblk m c 3 t (ix2 (0 : Fin 1) l) = m ((c : Thread nD τ).loc main_arg3) (ix1 l) := by
  show V m c main_call0_v0 (((cfg0.win 3).blk t).view.emb (ix2 (0 : Fin 1) l)) = _
  have e : (V m c main_call0_v0 : S1x128.Idx → Elt F .f32)
      = shapeCast S1x128 (m ((c : Thread nD τ).loc main_arg3)) shapeCasts_S128_S1x128 := by
    dsimp only [V, hostOps0]; after_results; rfl
  have hidx : ((cfg0.win 3).blk t).view.emb (ix2 (0 : Fin 1) l) = ix2 (0 : Fin 1) l := by
    funext a; apply Fin.ext
    obtain ⟨-, -, -, -, -, -, e0, e1, -⟩ := blockIndex_facts t
    match a with
    | ⟨0, _⟩ => show win0_3.index t (0 : Fin 2) * 1 + 1 * 0 = 0; omega
    | ⟨1, _⟩ => show win0_3.index t (1 : Fin 2) * 128 + 1 * l.val = l.val; omega
  rw [hidx, e]
  exact shapeCast_a_1a_apply _ _ 0 l

/-- The b1 block is b1 laid out as one row. -/
theorem b1Block_at (c : Dev nD) (t : Fin cfg0.N) (l : Fin 128) :
    iblk m c 5 t (ix2 (0 : Fin 1) l) = m ((c : Thread nD τ).loc main_arg5) (ix1 l) := by
  show V m c main_call0_v1 (((cfg0.win 5).blk t).view.emb (ix2 (0 : Fin 1) l)) = _
  have e : (V m c main_call0_v1 : S1x128.Idx → Elt F .f32)
      = shapeCast S1x128 (m ((c : Thread nD τ).loc main_arg5)) shapeCasts_S128_S1x128 := by
    dsimp only [V, hostOps0]; after_results; rfl
  have hidx : ((cfg0.win 5).blk t).view.emb (ix2 (0 : Fin 1) l) = ix2 (0 : Fin 1) l := by
    funext a; apply Fin.ext
    obtain ⟨-, -, -, -, -, -, -, -, -, -, e0, e1⟩ := blockIndex_facts t
    match a with
    | ⟨0, _⟩ => show win0_5.index t (0 : Fin 2) * 1 + 1 * 0 = 0; omega
    | ⟨1, _⟩ => show win0_5.index t (1 : Fin 2) * 128 + 1 * l.val = l.val; omega
  rw [hidx, e]
  exact shapeCast_a_1a_apply _ _ 0 l

end Blocks

/-! ## The scratch buffers and the result -/

section Result
variable (m : (ℓ : Loc nD τ sig) → Buf (Elt Ideal) ℓ) (ρ : Dev nD → PrngReg)

/-- The graph convolution of core c's argument arrays. -/
abbrev spec (c : Dev nD) : Gcn.Mat 10000 128 :=
  Gcn.out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The first scratch buffer holds x · W0. -/
theorem xwOf_at (c : Dev nD) (p : Fin 10000) (l : Fin 128) :
    xwOf m c (ix2 p l) = Gcn.xw (m ((c : Thread nD τ).loc main_arg0)) (m ((c : Thread nD τ).loc main_arg2)) p l := by
  unfold xwOf
  rw [xwPay_at, xBlock_eq, w0Block_eq]
  rfl

/-- The second scratch buffer, once filled, holds hid · W1. -/
theorem hwOf_at (c : Dev nD) (k : Fin 10000) (q : Fin 128) :
    hwOf m c (ix2 k q) = Gcn.hw (m ((c : Thread nD τ).loc main_arg0)) (m ((c : Thread nD τ).loc main_arg1))
      (m ((c : Thread nD τ).loc main_arg2)) (m ((c : Thread nD τ).loc main_arg3)) (m ((c : Thread nD τ).loc main_arg4)) k q := by
  show k0_pay3 (F := Ideal) (iblk m c 0 (rowPoint k)) (xwOf m c) (iblk m c 3 (rowPoint k)) (iblk m c 4 (rowPoint k)) (ix2 (rowLocal k) q) = _
  rw [hwPay_at]
  unfold Gcn.hw
  refine Finset.sum_congr rfl fun l _ => ?_
  rw [w1Block_eq, aggPay_at, b0Block_at]
  unfold Gcn.hid
  refine congrArg (fun z => max (z + _) _ * _) (Finset.sum_congr rfl fun mm _ => ?_)
  rw [adjBlock_at m c (rowPoint k) (rowLocal k) mm k (by
    show k.val = 400 * ((k.val / 400) % 25) + k.val % 400
    have := k.isLt; omega), xwOf_at]

/-- What a layer-1 point leaves in the output's staging buffer: its 400 rows of the result. -/
theorem outBlock_at (c : Dev nD) (t : Fin cfg0.N) (ht : 25 ≤ t.val) (r : Fin 400) (q : Fin 128) (p : Fin 10000)
    (hp : p.val = 400 * (t.val - 25) + r.val) :
    k0_pay4 (F := Ideal) (iblk m c 0 t) (hwOf m c) (iblk m c 5 t) (ix2 r q) = spec m c (ix2 p q) := by
  have hN : t.val < 50 := lt_of_lt_of_eq t.isLt (show cfg0.N = 50 from N_0)
  rw [aggPay_at, b1Block_at]
  unfold spec Gcn.out
  refine congrArg (· + _) (Finset.sum_congr rfl fun k _ => ?_)
  rw [adjBlock_at m c t r k p (by omega), hwOf_at]

/-- An index of the result array is in point t's block iff its coordinates are in the block's ranges. -/
theorem mem_outBlock (t : Fin cfg0.N) (i : S10000x128.Idx) :
    i ∈ ((cfg0.win 6).blk t).view.set ↔ ∀ a : Fin 2, win0_6.index t a * S400x128.size a ≤ (i a).val ∧ (i a).val < win0_6.index t a * S400x128.size a + S400x128.size a := by
  show i ∈ ((View.whole main_v0).slice (win0_6.rect t)).set ↔ _
  rw [View.set_slice_whole, Rect.mem_set_unit]
  exact Iff.rfl

/-- What a layer-1 point writes back is its block of the graph convolution. -/
theorem flushed_eq (c : Dev nD) (t : Fin cfg0.N) (ht : 25 ≤ t.val) :
    (dats m 0 c).flushed 6 t = ((cfg0.win 6).blk t).view.read (Elt Ideal) (spec m c) := by
  show (cfg0.win 6).cut (grid0.coords t) ((dats m 0 c).after 6 t) = _
  rw [after_out]
  have hN : t.val < 50 := lt_of_lt_of_eq t.isLt (show cfg0.N = 50 from N_0)
  obtain ⟨e0, e1⟩ := outIndex_eq t
  funext j
  obtain ⟨r, q, rfl⟩ : ∃ (r : Fin 400) (q : Fin 128), j = ix2 r q := ⟨j 0, j 1, eq_ix2 j⟩
  show k0_pay4 (F := Ideal) (iblk m c 0 t) (hwOf m c) (iblk m c 5 t) (ix2 r q) = spec m c (((cfg0.win 6).blk t).view.emb (ix2 r q))
  have hemb : ((cfg0.win 6).blk t).view.emb (ix2 r q) = ix2 (⟨400 * (t.val - 25) + r.val, by have := r.isLt; omega⟩ : Fin 10000) q := by
    funext a; apply Fin.ext
    match a with
    | ⟨0, _⟩ => show win0_6.index t (0 : Fin 2) * 400 + 1 * r.val = 400 * (t.val - 25) + r.val; omega
    | ⟨1, _⟩ => show win0_6.index t (1 : Fin 2) * 128 + 1 * q.val = q.val; omega
  rw [hemb]
  exact outBlock_at m c t ht r q _ rfl

/-- Every index of the result array is in the block some layer-1 point writes back. -/
theorem out_cover (i : S10000x128.Idx) :
    ∃ t : Fin cfg0.N, (cfg0.win 6).flush t = true ∧ i ∈ ((cfg0.win 6).blk t).view.set := by
  have hi0 : (i 0).val < 10000 := idx2_lt0 i
  have hi1 : (i 1).val < 128 := idx2_lt1 i
  let t : Fin cfg0.N := ⟨25 + (i 0).val / 400, lt_of_lt_of_eq (by omega : 25 + (i 0).val / 400 < 50) N_0.symm⟩
  have htv : t.val = 25 + (i 0).val / 400 := rfl
  obtain ⟨e0, e1⟩ := outIndex_eq t
  refine ⟨t, (outFlush_iff t).mpr (by omega), ?_⟩
  rw [mem_outBlock]
  intro a
  match a with
  | ⟨0, _⟩ => show win0_6.index t (0 : Fin 2) * 400 ≤ (i 0).val ∧ (i 0).val < win0_6.index t (0 : Fin 2) * 400 + 400; omega
  | ⟨1, _⟩ => show win0_6.index t (1 : Fin 2) * 128 ≤ (i 1).val ∧ (i 1).val < win0_6.index t (1 : Fin 2) * 128 + 128; omega

/-- The result array after the run is the graph convolution of the argument arrays. -/
theorem final (c : Dev nD) : (dats m 0 c).arrAt 6 cfg0.N = spec m c :=
  (dats m 0 c).arrAt_eq_of_cover 6 (spec m c) (fun t hf => flushed_eq m c t ((outFlush_iff t).mp hf)) out_cover

/-- The kernel's run: the result array ends at the graph convolution of the argument arrays, which end unchanged. -/
theorem run : θ_run defs (onTc (τ := τ) (main (F := Ideal))) ⟨m, fun _ => 0, ρ⟩ fun r => ∀ c : Dev nD,
      r.2.mem ((c.tc : Thread nD τ).loc main_v0) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 6).trans (final m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main m ρ)

end Result

end Cert.KernelIdeal.Body

end
-- ==== Proof.RefSide.lean ====
/-
  The reference computes the graph convolution's function: read one operation at a time, each matrix product is the
  plain sum over the contracted axis, each bias is added along the rows, and the rectifier is the maximum with zero.
-/
import proofs.«144543_g23725399343418_cont_8to1_318_4_alg».proof.Proof.Gen.ReferenceIdeal.Read
import proofs.«144543_g23725399343418_cont_8to1_318_4_alg».proof.Proof.GcnSpec

noncomputable section

open scoped BigOperators

namespace Cert.ReferenceIdeal.RefSide

open Cert.ReferenceIdeal Cert.ReferenceIdeal.Read Idealize.ShloMosaic Idealize.ShloMosaic.ValueIdx

/-! ## The operand indices of each product and bias, at entry (p, q) and contraction index k -/

theorem lx (m : Fin 10000) (l k : Fin 128) : lidx_main_v0 (ix2 m l) k = ix2 m k :=
  funext fun a => by match a with | ⟨0, _⟩ => rfl | ⟨1, _⟩ => rfl
theorem rx (m : Fin 10000) (l k : Fin 128) : ridx_main_v0 (ix2 m l) k = ix2 k l :=
  funext fun a => by match a with | ⟨0, _⟩ => rfl | ⟨1, _⟩ => rfl
theorem la0 (k : Fin 10000) (l : Fin 128) (m : Fin 10000) : lidx_main_v1 (ix2 k l) m = ix2 k m :=
  funext fun a => by match a with | ⟨0, _⟩ => rfl | ⟨1, _⟩ => rfl
theorem ra0 (k : Fin 10000) (l : Fin 128) (m : Fin 10000) : ridx_main_v1 (ix2 k l) m = ix2 m l :=
  funext fun a => by match a with | ⟨0, _⟩ => rfl | ⟨1, _⟩ => rfl
theorem lh (k : Fin 10000) (q l : Fin 128) : lidx_main_v6 (ix2 k q) l = ix2 k l :=
  funext fun a => by match a with | ⟨0, _⟩ => rfl | ⟨1, _⟩ => rfl
theorem rh (k : Fin 10000) (q l : Fin 128) : ridx_main_v6 (ix2 k q) l = ix2 l q :=
  funext fun a => by match a with | ⟨0, _⟩ => rfl | ⟨1, _⟩ => rfl
theorem la1 (p : Fin 10000) (q : Fin 128) (k : Fin 10000) : lidx_main_v7 (ix2 p q) k = ix2 p k :=
  funext fun a => by match a with | ⟨0, _⟩ => rfl | ⟨1, _⟩ => rfl
theorem ra1 (p : Fin 10000) (q : Fin 128) (k : Fin 10000) : ridx_main_v7 (ix2 p q) k = ix2 k q :=
  funext fun a => by match a with | ⟨0, _⟩ => rfl | ⟨1, _⟩ => rfl
theorem bias0 (k : Fin 10000) (l : Fin 128) : idx_main_v2 (idx_main_v3 (ix2 k l)) = ix1 l :=
  funext fun a => by match a with | ⟨0, _⟩ => rfl
theorem bias1 (p : Fin 10000) (q : Fin 128) : idx_main_v8 (idx_main_v9 (ix2 p q)) = ix1 q :=
  funext fun a => by match a with | ⟨0, _⟩ => rfl

variable (x : Gcn.Mat 10000 128) (adj : Gcn.Mat 10000 10000) (W0 : Gcn.Mat 128 128) (b0 : Gcn.Row 128)
  (W1 : Gcn.Mat 128 128) (b1 : Gcn.Row 128)

/-- The first product at an entry. -/
theorem xw_at (m : Fin 10000) (l : Fin 128) : val_main_v0 (F := Ideal) x W0 (ix2 m l) = Gcn.xw x W0 m l := by
  rw [val_main_v0_apply]; unfold Gcn.xw
  refine Finset.sum_congr rfl fun n _ => ?_
  rw [lx, rx]

/-- The pre-activation's product at an entry. -/
theorem agg0_at (k : Fin 10000) (l : Fin 128) :
    val_main_v1 (F := Ideal) x adj W0 (ix2 k l) = ∑ m : Fin 10000, adj (ix2 k m) * Gcn.xw x W0 m l := by
  rw [val_main_v1_apply]
  refine Finset.sum_congr rfl fun m _ => ?_
  rw [la0, ra0, xw_at]

/-- The hidden layer at an entry. -/
theorem hid_at (k : Fin 10000) (l : Fin 128) :
    val_main_v5 (F := Ideal) x adj W0 b0 (ix2 k l) = Gcn.hid x adj W0 b0 k l := by
  rw [val_main_v5_apply, val_main_v4_apply, val_main_call0_v0_apply, val_main_call0_cst_apply, val_main_v3_apply,
    val_main_v2_apply, agg0_at, bias0]
  rfl

/-- The second layer's projection at an entry. -/
theorem hw_at (k : Fin 10000) (q : Fin 128) :
    val_main_v6 (F := Ideal) x adj W0 b0 W1 (ix2 k q) = Gcn.hw x adj W0 b0 W1 k q := by
  rw [val_main_v6_apply]; unfold Gcn.hw
  refine Finset.sum_congr rfl fun l _ => ?_
  rw [lh, rh, hid_at]

/-- The reference's result is the graph convolution's function of the arguments. -/
theorem result_eq : val_main_v10 (F := Ideal) x adj W0 b0 W1 b1 = Gcn.out x adj W0 b0 W1 b1 := by
  funext j
  obtain ⟨p, q, rfl⟩ : ∃ (p : Fin 10000) (q : Fin 128), j = ix2 p q := ⟨j 0, j 1, eq_ix2 j⟩
  rw [val_main_v10_apply, val_main_v9_apply, val_main_v8_apply, val_main_v7_apply, bias1]
  show (∑ k : Fin 10000, _) + _ = (∑ k : Fin 10000, adj (ix2 p k) * Gcn.hw x adj W0 b0 W1 k q) + b1 (ix1 q)
  refine congrArg (· + b1 (ix1 q)) (Finset.sum_congr rfl fun k _ => ?_)
  rw [la1, ra1, hw_at]

end Cert.ReferenceIdeal.RefSide

end
-- ==== Proof.lean ====
/-
  The two-layer graph convolution kernel against its jnp reference.

  Both programs compute, entry by entry on the extended reals, out = adj · (max (adj · (x · W0) + b0, 0) · W1) + b1
  with the same grouping of the sums: the kernel's three products accumulate onto zero, its changes of float format
  are the identity, and its 25 output blocks tile the result; the reference's host products are the same plain sums.
  No algebraic law joins the two sides, so the precondition is never opened. The kernel's frame (it runs, nothing
  faults, the arguments end unchanged) is proved once for any float instance and read at the word level and at the
  extended reals; the idealization rewrote no operation, so there is nothing to preserve.
-/
import proofs.«144543_g23725399343418_cont_8to1_318_4_alg».proof.Defs
import proofs.«144543_g23725399343418_cont_8to1_318_4_alg».proof.Proof.Gen.Kernel
import proofs.«144543_g23725399343418_cont_8to1_318_4_alg».proof.Proof.Gen.KernelIdeal
import proofs.«144543_g23725399343418_cont_8to1_318_4_alg».proof.Proof.Gen.ReferenceIdeal
import proofs.«144543_g23725399343418_cont_8to1_318_4_alg».proof.Proof.Gen.Pre_finite_inputs
import proofs.«144543_g23725399343418_cont_8to1_318_4_alg».proof.Proof.Gen.ReferenceIdeal.Run
import proofs.«144543_g23725399343418_cont_8to1_318_4_alg».proof.Proof.GcnFrameBits
import proofs.«144543_g23725399343418_cont_8to1_318_4_alg».proof.Proof.GcnValue
import proofs.«144543_g23725399343418_cont_8to1_318_4_alg».proof.Proof.RefSide
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Body.frame (F := Bits) m ρ

/-- So does its reading on the extended reals. -/
theorem frame_kernelIdeal : Cert.frame_KernelIdeal := fun m ρ _ => Cert.KernelIdeal.Body.frame (F := Ideal) m ρ

/-- The reference is host operations only: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the graph convolution of those arguments. -/
theorem algebraic : Cert.algebraic_KernelIdeal_ReferenceIdeal := by
  intro m ρ m' ρ' _ hagree
  refine ⟨fun c => Cert.KernelIdeal.Body.spec m c, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefSide.result_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
